-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384 : Shape := ⟨1, ![16384]⟩
abbrev S4x256x64x64 : Shape := ⟨4, ![4, 256, 64, 64]⟩
abbrev S2000 : Shape := ⟨1, ![2000]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384 : S_.BroadcastsInDim S16384 (![] : Fin 0 → Fin S16384.rank)
  reducesTo_S16384_S_d0 : S16384.ReducesTo [0] S_
  bcast_S_S4x256x64x64 : S_.BroadcastsInDim S4x256x64x64 (![] : Fin 0 → Fin S4x256x64x64.rank)
  reducesTo_S4x256x64x64_S_d0_1_2_3 : S4x256x64x64.ReducesTo [0, 1, 2, 3] S_

variable [Facts]

def fn_part1 {F : FTy → Type} [FloatOps F] (main_arg6 : FVec F S4x256x64x64 .f32) (main_arg7 : FVec F S4x256x64x64 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S4x256x64x64 .f32 := Host.absf main_arg6
  let main_cst_6 : FVec F S_ .f32 := constant S_ .f32 0x7F800000#32
  let main_v20 : FVec F S4x256x64x64 .f32 := broadcastInDim S4x256x64x64 ![] bcast_S_S4x256x64x64 main_cst_6
  let main_v21 : IVec S4x256x64x64 1 := cmpf .olt main_v19 main_v20
  let main_c_7 : IVec S_ 1 := constantI S_ 1 1#1
  let main_v22 : IVec S_ 1 := (fun x v => Host.reduce IntOp.andi x v reducesTo_S4x256x64x64_S_d0_1_2_3 h_S_) main_v21 main_c_7
  let main_v23 : IVec S_ 1 := andi main_v18 main_v22
  let main_v24 : FVec F S4x256x64x64 .f32 := Host.absf main_arg7
  let main_cst_8 : FVec F S_ .f32 := constant S_ .f32 0x7F800000#32
  let main_v25 : FVec F S4x256x64x64 .f32 := broadcastInDim S4x256x64x64 ![] bcast_S_S4x256x64x64 main_cst_8
  let main_v26 : IVec S4x256x64x64 1 := cmpf .olt main_v24 main_v25
  let main_c_9 : IVec S_ 1 := constantI S_ 1 1#1
  let main_v27 : IVec S_ 1 := (fun x v => Host.reduce IntOp.andi x v reducesTo_S4x256x64x64_S_d0_1_2_3 h_S_) main_v26 main_c_9
  let main_v28 : IVec S_ 1 := andi main_v23 main_v27
  main_v28

def fn {F : FTy → Type} [FloatOps F] (main_arg0 : FVec F S16384x256 .f32) (main_arg1 : FVec F S16384x256 .f32) (main_arg2 : IVec S16384 32) (main_arg3 : IVec S16384 32) (main_arg4 : FVec F S16384 .f32) (main_arg5 : FVec F S16384 .f32) (main_arg6 : FVec F S4x256x64x64 .f32) (main_arg7 : FVec F S4x256x64x64 .f32) (main_arg8 : IVec S2000 32) (main_arg9 : IVec S2000 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S16384 .f32 := Host.absf main_arg4
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg5
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg6 main_arg7 main_v13 main_v16
-- ==== Kernel.lean ====
abbrev S16384x256 : Shape := ⟨2, ![16384, 256]⟩
abbrev S16384 : Shape := ⟨1, ![16384]⟩
abbrev S4x256x64x64 : Shape := ⟨4, ![4, 256, 64, 64]⟩
abbrev S2000 : Shape := ⟨1, ![2000]⟩
abbrev S4x64x64x256 : Shape := ⟨4, ![4, 64, 64, 256]⟩
abbrev S_ : Shape := ⟨0, ![]⟩
abbrev S2000x1 : Shape := ⟨2, ![2000, 1]⟩
abbrev S2000x256 : Shape := ⟨2, ![2000, 256]⟩
abbrev S4000x256 : Shape := ⟨2, ![4000, 256]⟩
abbrev S4000 : Shape := ⟨1, ![4000]⟩
abbrev S4096x256 : Shape := ⟨2, ![4096, 256]⟩
abbrev S4096 : Shape := ⟨1, ![4096]⟩
abbrev S256x4096 : Shape := ⟨2, ![256, 4096]⟩
abbrev S1x4096 : Shape := ⟨2, ![1, 4096]⟩
abbrev S16384x1 : Shape := ⟨2, ![16384, 1]⟩
abbrev S256x256 : Shape := ⟨2, ![256, 256]⟩
abbrev S256x1 : Shape := ⟨2, ![256, 1]⟩
abbrev S256 : Shape := ⟨1, ![256]⟩

abbrev nBuf : Space → Nat
  | .hbm => 124
  | .vmem => 20
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384, .i32⟩
  | .hbm, ⟨3, _⟩ => ⟨S16384, .i32⟩
  | .hbm, ⟨4, _⟩ => ⟨S16384, .f32⟩
  | .hbm, ⟨5, _⟩ => ⟨S16384, .f32⟩
  | .hbm, ⟨6, _⟩ => ⟨S4x256x64x64, .f32⟩
  | .hbm, ⟨7, _⟩ => ⟨S4x256x64x64, .f32⟩
  | .hbm, ⟨8, _⟩ => ⟨S2000, .i32⟩
  | .hbm, ⟨9, _⟩ => ⟨S2000, .i32⟩
  | .hbm, ⟨10, _⟩ => ⟨S4x64x64x256, .f32⟩
  | .hbm, ⟨11, _⟩ => ⟨S16384x256, .f32⟩
  | .hbm, ⟨12, _⟩ => ⟨S4x64x64x256, .f32⟩
  | .hbm, ⟨13, _⟩ => ⟨S16384x256, .f32⟩
  | .hbm, ⟨14, _⟩ => ⟨S_, .i32⟩
  | .hbm, ⟨15, _⟩ => ⟨S2000, .i32⟩
  | .hbm, ⟨16, _⟩ => ⟨S2000, .i1⟩
  | .hbm, ⟨17, _⟩ => ⟨S_, .i32⟩
  | .hbm, ⟨18, _⟩ => ⟨S2000, .i32⟩
  | .hbm, ⟨19, _⟩ => ⟨S2000, .i32⟩
  | .hbm, ⟨20, _⟩ => ⟨S2000, .i32⟩
  | .hbm, ⟨21, _⟩ => ⟨S2000x1, .i32⟩
  | .hbm, ⟨22, _⟩ => ⟨S2000x256, .f32⟩
  | .hbm, ⟨23, _⟩ => ⟨S_, .i32⟩
  | .hbm, ⟨24, _⟩ => ⟨S2000, .i32⟩
  | .hbm, ⟨25, _⟩ => ⟨S2000, .i1⟩
  | .hbm, ⟨26, _⟩ => ⟨S_, .i32⟩
  | .hbm, ⟨27, _⟩ => ⟨S2000, .i32⟩
  | .hbm, ⟨28, _⟩ => ⟨S2000, .i32⟩
  | .hbm, ⟨29, _⟩ => ⟨S2000, .i32⟩
  | .hbm, ⟨30, _⟩ => ⟨S2000x1, .i32⟩
  | .hbm, ⟨31, _⟩ => ⟨S2000x256, .f32⟩
  | .hbm, ⟨32, _⟩ => ⟨S4000x256, .f32⟩
  | .hbm, ⟨33, _⟩ => ⟨S_, .i32⟩
  | .hbm, ⟨34, _⟩ => ⟨S2000, .i32⟩
  | .hbm, ⟨35, _⟩ => ⟨S2000, .i1⟩
  | .hbm, ⟨36, _⟩ => ⟨S_, .i32⟩
  | .hbm, ⟨37, _⟩ => ⟨S2000, .i32⟩
  | .hbm, ⟨38, _⟩ => ⟨S2000, .i32⟩
  | .hbm, ⟨39, _⟩ => ⟨S2000, .i32⟩
  | .hbm, ⟨40, _⟩ => ⟨S2000x1, .i32⟩
  | .hbm, ⟨41, _⟩ => ⟨S2000, .i32⟩
  | .hbm, ⟨42, _⟩ => ⟨S_, .i32⟩
  | .hbm, ⟨43, _⟩ => ⟨S2000, .i32⟩
  | .hbm, ⟨44, _⟩ => ⟨S2000, .i1⟩
  | .hbm, ⟨45, _⟩ => ⟨S_, .i32⟩
  | .hbm, ⟨46, _⟩ => ⟨S2000, .i32⟩
  | .hbm, ⟨47, _⟩ => ⟨S2000, .i32⟩
  | .hbm, ⟨48, _⟩ => ⟨S2000, .i32⟩
  | .hbm, ⟨49, _⟩ => ⟨S2000x1, .i32⟩
  | .hbm, ⟨50, _⟩ => ⟨S2000, .i32⟩
  | .hbm, ⟨51, _⟩ => ⟨S4000, .i32⟩
  | .hbm, ⟨52, _⟩ => ⟨S_, .i32⟩
  | .hbm, ⟨53, _⟩ => ⟨S_, .f32⟩
  | .hbm, ⟨54, _⟩ => ⟨S4096x256, .f32⟩
  | .hbm, ⟨55, _⟩ => ⟨S_, .i32⟩
  | .hbm, ⟨56, _⟩ => ⟨S_, .i32⟩
  | .hbm, ⟨57, _⟩ => ⟨S4096, .i32⟩
  | .hbm, ⟨58, _⟩ => ⟨S4096x256, .bf16⟩
  | .hbm, ⟨59, _⟩ => ⟨S256x4096, .bf16⟩
  | .hbm, ⟨60, _⟩ => ⟨S1x4096, .i32⟩
  | .hbm, ⟨61, _⟩ => ⟨S16384x1, .i32⟩
  | .hbm, ⟨62, _⟩ => ⟨S16384x1, .i32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S16384, .f32⟩
  | .hbm, ⟨72, _⟩ => ⟨S16384, .f32⟩
  | .hbm, ⟨73, _⟩ => ⟨S_, .f32⟩
  | .hbm, ⟨74, _⟩ => ⟨S16384, .f32⟩
  | .hbm, ⟨75, _⟩ => ⟨S16384, .f32⟩
  | .hbm, ⟨76, _⟩ => ⟨S16384, .f32⟩
  | .hbm, ⟨77, _⟩ => ⟨S_, .f32⟩
  | .hbm, ⟨78, _⟩ => ⟨S16384, .f32⟩
  | .hbm, ⟨79, _⟩ => ⟨S16384, .i1⟩
  | .hbm, ⟨80, _⟩ => ⟨S16384, .i1⟩
  | .hbm, ⟨81, _⟩ => ⟨S16384, .i1⟩
  | .hbm, ⟨82, _⟩ => ⟨S16384, .f32⟩
  | .hbm, ⟨83, _⟩ => ⟨S_, .f32⟩
  | .hbm, ⟨84, _⟩ => ⟨S16384, .f32⟩
  | .hbm, ⟨85, _⟩ => ⟨S16384, .f32⟩
  | .hbm, ⟨86, _⟩ => ⟨S16384, .f32⟩
  | .hbm, ⟨87, _⟩ => ⟨S16384, .f32⟩
  | .hbm, ⟨88, _⟩ => ⟨S16384, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S16384, .f32⟩
  | .hbm, ⟨97, _⟩ => ⟨S16384, .f32⟩
  | .hbm, ⟨98, _⟩ => ⟨S16384, .f32⟩
  | .hbm, ⟨99, _⟩ => ⟨S16384, .f32⟩
  | .hbm, ⟨100, _⟩ => ⟨S_, .f32⟩
  | .hbm, ⟨101, _⟩ => ⟨S16384, .f32⟩
  | .hbm, ⟨102, _⟩ => ⟨S16384, .f32⟩
  | .hbm, ⟨103, _⟩ => ⟨S16384, .f32⟩
  | .hbm, ⟨104, _⟩ => ⟨S_, .f32⟩
  | .hbm, ⟨105, _⟩ => ⟨S16384, .f32⟩
  | .hbm, ⟨106, _⟩ => ⟨S16384, .i1⟩
  | .hbm, ⟨107, _⟩ => ⟨S16384, .i1⟩
  | .hbm, ⟨108, _⟩ => ⟨S16384, .i1⟩
  | .hbm, ⟨109, _⟩ => ⟨S16384, .f32⟩
  | .hbm, ⟨110, _⟩ => ⟨S_, .f32⟩
  | .hbm, ⟨111, _⟩ => ⟨S16384, .f32⟩
  | .hbm, ⟨112, _⟩ => ⟨S16384, .f32⟩
  | .hbm, ⟨113, _⟩ => ⟨S16384, .f32⟩
  | .hbm, ⟨114, _⟩ => ⟨S16384, .f32⟩
  | .hbm, ⟨115, _⟩ => ⟨S16384, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x1, .i32⟩
  | .local _ .vmem, ⟨5, _⟩ => ⟨S256x1, .i32⟩
  | .local _ .vmem, ⟨6, _⟩ => ⟨S256x1, .i32⟩
  | .local _ .vmem, ⟨7, _⟩ => ⟨S256x1, .i32⟩
  | .local _ .vmem, ⟨8, _⟩ => ⟨S256x4096, .bf16⟩
  | .local _ .vmem, ⟨9, _⟩ => ⟨S1x4096, .i32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_call0_v0 : Ref sig .tc := ⟨.hbm, 53, rfl⟩
abbrev main_v34 : Ref sig .tc := ⟨.hbm, 54, rfl⟩
abbrev main_c_8 : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev main_v41_2 : Ref sig .tc := ⟨.hbm, 65, rfl⟩
abbrev main_v41_3 : Ref sig .tc := ⟨.hbm, 66, rfl⟩
abbrev main_v41_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_15 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_16 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_cst_18 : Ref sig .tc := ⟨.hbm, 118, rfl⟩
abbrev main_v82 : Ref sig .tc := ⟨.hbm, 119, rfl⟩
abbrev main_cst_19 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S4x256x64x64_S4x64x64x256_0_2_3_1 : S4x256x64x64.Transposes [0, 2, 3, 1] S4x64x64x256
  shapeCasts_S4x64x64x256_S16384x256 : S4x64x64x256.ShapeCasts S16384x256
  bcast_S_S2000 : S_.BroadcastsInDim S2000 (![] : Fin 0 → Fin S2000.rank)
  bcast_S2000_S2000x1_0 : S2000.BroadcastsInDim S2000x1 (![0] : Fin 1 → Fin S2000x1.rank)
  concatenates_S2000x256_S2000x256_S4000x256_d0 : Shape.Concatenates [S2000x256, S2000x256] S4000x256 0
  concatenates_S2000_S2000_S4000_d0 : Shape.Concatenates [S2000, S2000] S4000 0
  pads_S4000x256_S4096x256_0960_000 : S4000x256.Pads (![0, 0] : Fin 2 → Nat) ![96, 0] ![0, 0] S4096x256
  h_S_ : 0 < S_.numel
  pads_S4000_S4096_0960 : S4000.Pads (![0] : Fin 1 → Nat) ![96] ![0] S4096
  bitsLt_bf16_f32 : FTy.bits .bf16 < FTy.bits .f32
  transposes_S4096x256_S256x4096_1_0 : S4096x256.Transposes [1, 0] S256x4096
  shapeCasts_S4096_S1x4096 : S4096.ShapeCasts S1x4096
  shapeCasts_S16384_S16384x1 : S16384.ShapeCasts S16384x1
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  iota_S256x4096_d1_w32 : S256x4096.Iotas .tc 32 [1]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  shapeCasts_S256x1_S256x1 : S256x1.ShapeCasts S256x1
  reduces_S256x4096_S256 : S256x4096.Reduces [1] S256
  broadcasts_S256x1_S256x4096 : S256x1.Broadcasts S256x4096
  broadcasts_S1x4096_S256x4096 : S1x4096.Broadcasts S256x4096
  shapeCasts_S16384x1_S16384 : S16384x1.ShapeCasts S16384
  bcast_S_S16384 : S_.BroadcastsInDim S16384 (![] : Fin 0 → Fin S16384.rank)
  reducesTo_S16384_S_d0 : S16384.ReducesTo [0] S_
  gather_S16384x256_S2000x1_S2000x256_1_0_n_n_0_1_1256_wf : GatherDims.WF S16384x256 S2000x1 S2000x256 [1] [0] [] [0] [] 1 ![1, 256]
  gather_S16384_S2000x1_S2000_n_0_n_n_0_1_1_wf : GatherDims.WF S16384 S2000x1 S2000 [] [0] [] [0] [] 1 ![1]
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S16384x256.size a
  hwx0_1 : ∀ i : grid0.Coords, EltTy.bits .f32 = 32 ∨ (Rect.block (s := S16384x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .i32 = 32 ∨ (Rect.block (s := S16384x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .i32 = 32 ∨ (Rect.block (s := S16384x1) S256x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S256x4096.size a
  hwx0_4 : ∀ i : grid0.Coords, EltTy.bits .bf16 = 32 ∨ (Rect.block (s := S256x4096) S256x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .i32 = 32 ∨ (Rect.block (s := S1x4096) S1x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S16384x1.size a
  hwx0_6 : ∀ i : grid0.Coords, EltTy.bits .f32 = 32 ∨ (Rect.block (s := S16384x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S16384x1.size a
  hwx0_7 : ∀ i : grid0.Coords, EltTy.bits .f32 = 32 ∨ (Rect.block (s := S16384x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S16384x1.size a
  hwx0_8 : ∀ i : grid0.Coords, EltTy.bits .f32 = 32 ∨ (Rect.block (s := S16384x1) S256x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S16384x1.size a
  hwx0_9 : ∀ i : grid0.Coords, EltTy.bits .f32 = 32 ∨ (Rect.block (s := S16384x1) S256x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S16384x1.size a
  hwx0_10 : ∀ i : grid0.Coords, EltTy.bits .f32 = 32 ∨ (Rect.block (s := S16384x1) S256x1.size (cc0_transform_10 i) (hinb0_10 i)).WholeWords (EltTy.packing .f32)

variable [Facts₀]

def gather_S16384x256_S2000x1_S2000x256_1_0_n_n_0_1_1256 : GatherDims S16384x256 S2000x1 S2000x256 where
  offsetDims := [1]
  collapsedSliceDims := [0]
  operandBatchingDims := []
  startIndicesBatchingDims := []
  startIndexMap := [0]
  indexVectorDim := 1
  sliceSizes := ![1, 256]
  wf := gather_S16384x256_S2000x1_S2000x256_1_0_n_n_0_1_1256_wf
def gather_S16384_S2000x1_S2000_n_0_n_n_0_1_1 : GatherDims S16384 S2000x1 S2000 where
  offsetDims := []
  collapsedSliceDims := [0]
  operandBatchingDims := []
  startIndicesBatchingDims := []
  startIndexMap := [0]
  indexVectorDim := 1
  sliceSizes := ![1]
  wf := gather_S16384_S2000x1_S2000_n_0_n_n_0_1_1_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S256x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41_0) S256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v41_1) S256x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v41_2) S256x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v41_3) S256x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v41_4) S256x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384 : Shape := ⟨1, ![16384]⟩
abbrev S4x256x64x64 : Shape := ⟨4, ![4, 256, 64, 64]⟩
abbrev S2000 : Shape := ⟨1, ![2000]⟩
abbrev S4x64x64x256 : Shape := ⟨4, ![4, 64, 64, 256]⟩
abbrev S_ : Shape := ⟨0, ![]⟩
abbrev S2000x1 : Shape := ⟨2, ![2000, 1]⟩
abbrev S2000x256 : Shape := ⟨2, ![2000, 256]⟩
abbrev S4000x256 : Shape := ⟨2, ![4000, 256]⟩
abbrev S4000 : Shape := ⟨1, ![4000]⟩
abbrev S16384x1 : Shape := ⟨2, ![16384, 1]⟩
abbrev S16384x4000 : Shape := ⟨2, ![16384, 4000]⟩
abbrev S1x4000 : Shape := ⟨2, ![1, 4000]⟩

abbrev nBuf : Space → Nat
  | .hbm => 160
  | .vmem => 0
  | .smem => 0
  | _ => 0

abbrev hbmTy0_0 (i : Nat) : BufTy := match i % 128 with
  | 0 => ⟨S16384x256, .f32⟩
  | 1 => ⟨S16384x256, .f32⟩
  | 2 => ⟨S16384, .i32⟩
  | 3 => ⟨S16384, .i32⟩
  | 4 => ⟨S16384, .f32⟩
  | 5 => ⟨S16384, .f32⟩
  | 6 => ⟨S4x256x64x64, .f32⟩
  | 7 => ⟨S4x256x64x64, .f32⟩
  | 8 => ⟨S2000, .i32⟩
  | 9 => ⟨S2000, .i32⟩
  | 10 => ⟨S4x64x64x256, .f32⟩
  | 11 => ⟨S16384x256, .f32⟩
  | 12 => ⟨S4x64x64x256, .f32⟩
  | 13 => ⟨S16384x256, .f32⟩
  | 14 => ⟨S_, .i32⟩
  | 15 => ⟨S2000, .i32⟩
  | 16 => ⟨S2000, .i1⟩
  | 17 => ⟨S_, .i32⟩
  | 18 => ⟨S2000, .i32⟩
  | 19 => ⟨S2000, .i32⟩
  | 20 => ⟨S2000, .i32⟩
  | 21 => ⟨S2000x1, .i32⟩
  | 22 => ⟨S2000x256, .f32⟩
  | 23 => ⟨S_, .i32⟩
  | 24 => ⟨S2000, .i32⟩
  | 25 => ⟨S2000, .i1⟩
  | 26 => ⟨S_, .i32⟩
  | 27 => ⟨S2000, .i32⟩
  | 28 => ⟨S2000, .i32⟩
  | 29 => ⟨S2000, .i32⟩
  | 30 => ⟨S2000x1, .i32⟩
  | 31 => ⟨S2000x256, .f32⟩
  | 32 => ⟨S4000x256, .f32⟩
  | 33 => ⟨S_, .i32⟩
  | 34 => ⟨S2000, .i32⟩
  | 35 => ⟨S2000, .i1⟩
  | 36 => ⟨S_, .i32⟩
  | 37 => ⟨S2000, .i32⟩
  | 38 => ⟨S2000, .i32⟩
  | 39 => ⟨S2000, .i32⟩
  | 40 => ⟨S2000x1, .i32⟩
  | 41 => ⟨S2000, .i32⟩
  | 42 => ⟨S_, .i32⟩
  | 43 => ⟨S2000, .i32⟩
  | 44 => ⟨S2000, .i1⟩
  | 45 => ⟨S_, .i32⟩
  | 46 => ⟨S2000, .i32⟩
  | 47 => ⟨S2000, .i32⟩
  | 48 => ⟨S2000, .i32⟩
  | 49 => ⟨S2000x1, .i32⟩
  | 50 => ⟨S2000, .i32⟩
  | 51 => ⟨S4000, .i32⟩
  | 52 => ⟨S16384x256, .f32⟩
  | 53 => ⟨S_, .f32⟩
  | 54 => ⟨S16384, .f32⟩
  | 55 => ⟨S16384x1, .f32⟩
  | 56 => ⟨S_, .f32⟩
  | 57 => ⟨S16384x1, .f32⟩
  | 58 => ⟨S16384x1, .f32⟩
  | 59 => ⟨S16384x4000, .f32⟩
  | 60 => ⟨S_, .f32⟩
  | 61 => ⟨S16384x4000, .f32⟩
  | 62 => ⟨S16384x4000, .f32⟩
  | 63 => ⟨S_, .f32⟩
  | 64 => ⟨S16384, .f32⟩
  | 65 => ⟨S16384x1, .f32⟩
  | 66 => ⟨S16384x1, .f32⟩
  | 67 => ⟨S16384x1, .i32⟩
  | 68 => ⟨S1x4000, .i32⟩
  | 69 => ⟨S16384x4000, .i32⟩
  | 70 => ⟨S16384x4000, .i32⟩
  | 71 => ⟨S16384x4000, .i1⟩
  | 72 => ⟨S16384x4000, .f32⟩
  | 73 => ⟨S16384x1, .f32⟩
  | 74 => ⟨S16384x1, .f32⟩
  | 75 => ⟨S16384, .f32⟩
  | 76 => ⟨S16384x4000, .f32⟩
  | 77 => ⟨S16384x4000, .f32⟩
  | 78 => ⟨S16384x4000, .f32⟩
  | 79 => ⟨S16384x4000, .f32⟩
  | 80 => ⟨S_, .f32⟩
  | 81 => ⟨S16384, .f32⟩
  | 82 => ⟨S16384, .f32⟩
  | 83 => ⟨S16384x1, .f32⟩
  | 84 => ⟨S16384x1, .f32⟩
  | 85 => ⟨S16384, .f32⟩
  | 86 => ⟨S_, .f32⟩
  | 87 => ⟨S16384, .f32⟩
  | 88 => ⟨S16384, .f32⟩
  | 89 => ⟨S16384, .f32⟩
  | 90 => ⟨S_, .f32⟩
  | 91 => ⟨S16384, .f32⟩
  | 92 => ⟨S16384, .i1⟩
  | 93 => ⟨S16384, .i1⟩
  | 94 => ⟨S16384, .i1⟩
  | 95 => ⟨S16384, .f32⟩
  | 96 => ⟨S_, .f32⟩
  | 97 => ⟨S16384, .f32⟩
  | 98 => ⟨S16384, .f32⟩
  | 99 => ⟨S16384, .f32⟩
  | 100 => ⟨S16384, .f32⟩
  | 101 => ⟨S16384, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S16384x4000, .f32⟩
  | 110 => ⟨S_, .f32⟩
  | 111 => ⟨S16384x4000, .f32⟩
  | 112 => ⟨S16384x4000, .f32⟩
  | 113 => ⟨S_, .f32⟩
  | 114 => ⟨S16384, .f32⟩
  | 115 => ⟨S16384x1, .f32⟩
  | 116 => ⟨S16384x1, .f32⟩
  | 117 => ⟨S16384x1, .i32⟩
  | 118 => ⟨S1x4000, .i32⟩
  | 119 => ⟨S16384x4000, .i32⟩
  | 120 => ⟨S16384x4000, .i32⟩
  | 121 => ⟨S16384x4000, .i1⟩
  | 122 => ⟨S16384x4000, .f32⟩
  | 123 => ⟨S16384x1, .f32⟩
  | 124 => ⟨S16384x1, .f32⟩
  | 125 => ⟨S16384, .f32⟩
  | 126 => ⟨S16384x4000, .f32⟩
  | 127 => ⟨S16384x4000, .f32⟩
  | _ => ⟨S16384x256, .f32⟩

abbrev hbmTy0_1 (i : Nat) : BufTy := match i % 128 with
  | 0 => ⟨S16384x4000, .f32⟩
  | 1 => ⟨S16384x4000, .f32⟩
  | 2 => ⟨S_, .f32⟩
  | 3 => ⟨S16384, .f32⟩
  | 4 => ⟨S16384, .f32⟩
  | 5 => ⟨S16384x1, .f32⟩
  | 6 => ⟨S16384x1, .f32⟩
  | 7 => ⟨S16384, .f32⟩
  | 8 => ⟨S_, .f32⟩
  | 9 => ⟨S16384, .f32⟩
  | 10 => ⟨S16384, .f32⟩
  | 11 => ⟨S16384, .f32⟩
  | 12 => ⟨S_, .f32⟩
  | 13 => ⟨S16384, .f32⟩
  | 14 => ⟨S16384, .i1⟩
  | 15 => ⟨S16384, .i1⟩
  | 16 => ⟨S16384, .i1⟩
  | 17 => ⟨S16384, .f32⟩
  | 18 => ⟨S_, .f32⟩
  | 19 => ⟨S16384, .f32⟩
  | 20 => ⟨S16384, .f32⟩
  | 21 => ⟨S16384, .f32⟩
  | 22 => ⟨S16384, .f32⟩
  | 23 => ⟨S16384, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_19 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_21 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_22 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_23 : Ref sig .tc := ⟨.hbm, 152, rfl⟩
abbrev main_v117 : Ref sig .tc := ⟨.hbm, 153, rfl⟩
abbrev main_cst_24 : Ref sig .tc := ⟨.hbm, 154, rfl⟩
abbrev main_v118 : Ref sig .tc := ⟨.hbm, 155, rfl⟩
abbrev main_cst_25 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩

abbrev nD : Nat := 1
abbrev τ : Topo := Topo.v7x

variable {F : FTy → Type} [FloatOps F]

class Facts₀ : Prop where
  transposes_S4x256x64x64_S4x64x64x256_0_2_3_1 : S4x256x64x64.Transposes [0, 2, 3, 1] S4x64x64x256
  shapeCasts_S4x64x64x256_S16384x256 : S4x64x64x256.ShapeCasts S16384x256
  bcast_S_S2000 : S_.BroadcastsInDim S2000 (![] : Fin 0 → Fin S2000.rank)
  bcast_S2000_S2000x1_0 : S2000.BroadcastsInDim S2000x1 (![0] : Fin 1 → Fin S2000x1.rank)
  concatenates_S2000x256_S2000x256_S4000x256_d0 : Shape.Concatenates [S2000x256, S2000x256] S4000x256 0
  concatenates_S2000_S2000_S4000_d0 : Shape.Concatenates [S2000, S2000] S4000 0
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S_S16384x4000 : S_.BroadcastsInDim S16384x4000 (![] : Fin 0 → Fin S16384x4000.rank)
  reducesTo_S16384x4000_S16384_d1 : S16384x4000.ReducesTo [1] S16384
  bcast_S4000_S1x4000_1 : S4000.BroadcastsInDim S1x4000 (![1] : Fin 1 → Fin S1x4000.rank)
  bcast_S16384x1_S16384x4000_0_1 : S16384x1.BroadcastsInDim S16384x4000 (![0, 1] : Fin 2 → Fin S16384x4000.rank)
  bcast_S1x4000_S16384x4000_0_1 : S1x4000.BroadcastsInDim S16384x4000 (![0, 1] : Fin 2 → Fin S16384x4000.rank)
  shapeCasts_S16384x1_S16384 : S16384x1.ShapeCasts S16384
  bcast_S_S16384 : S_.BroadcastsInDim S16384 (![] : Fin 0 → Fin S16384.rank)
  reducesTo_S16384_S_d0 : S16384.ReducesTo [0] S_
  gather_S16384x256_S2000x1_S2000x256_1_0_n_n_0_1_1256_wf : GatherDims.WF S16384x256 S2000x1 S2000x256 [1] [0] [] [0] [] 1 ![1, 256]
  gather_S16384_S2000x1_S2000_n_0_n_n_0_1_1_wf : GatherDims.WF S16384 S2000x1 S2000 [] [0] [] [0] [] 1 ![1]
  dot_S16384x256_S4000x256_S16384x4000_1_1_0_0_n_n_wf : DotDims.WF S16384x256 S4000x256 S16384x4000 [1] [1] [0] [0] [] []

variable [Facts₀]

def gather_S16384x256_S2000x1_S2000x256_1_0_n_n_0_1_1256 : GatherDims S16384x256 S2000x1 S2000x256 where
  offsetDims := [1]
  collapsedSliceDims := [0]
  operandBatchingDims := []
  startIndicesBatchingDims := []
  startIndexMap := [0]
  indexVectorDim := 1
  sliceSizes := ![1, 256]
  wf := gather_S16384x256_S2000x1_S2000x256_1_0_n_n_0_1_1256_wf
def gather_S16384_S2000x1_S2000_n_0_n_n_0_1_1 : GatherDims S16384 S2000x1 S2000 where
  offsetDims := []
  collapsedSliceDims := [0]
  operandBatchingDims := []
  startIndicesBatchingDims := []
  startIndexMap := [0]
  indexVectorDim := 1
  sliceSizes := ![1]
  wf := gather_S16384_S2000x1_S2000_n_0_n_n_0_1_1_wf
def dot_S16384x256_S4000x256_S16384x4000_1_1_0_0_n_n : DotDims S16384x256 S4000x256 S16384x4000 where
  lhsContracting := [1]
  rhsContracting := [1]
  lhsNonContracting := [0]
  rhsNonContracting := [0]
  lhsBatch := []
  rhsBatch := []
  wf := dot_S16384x256_S4000x256_S16384x4000_1_1_0_0_n_n_wf

class Facts : Prop extends Facts₀ where

variable [Facts]
-- ==== Proof.Blocks.lean ====
/-
  Where the blocks sit.

  The grid has 64 points. At point `t` the two feature windows and the two label windows hold rows 256·t … 256·t + 255
  of their arrays; the bank and its labels are one block, the whole array, at every point; each of the five output
  windows writes back rows 256·t … 256·t + 255 of its [16384, 1] array. So row `p` of a block is row `rowOf t p` of the
  array, and the sixty-four output blocks cover each output array: row `r` lies in the block of point `r / 256`.
-/
import proofs.«168752_j88038239633768_1_alg».proof.Proof.KernelIdealFrameP
import Idealize.ShloMosaic.Lib.Pipeline.Value
import Idealize.ShloMosaic.Lib.ValueIdx

set_option maxRecDepth 16384

noncomputable section

namespace Cert.Contrast.K

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP

variable {F : FTy → Type} [FloatOps F] [Named F]
variable (m : (ℓ : Loc nD τ sig) → Buf (Elt F) ℓ)

/-- The offset of a whole-block store or load: zero on both axes. -/
theorem hz : (![0, 0] : Fin 2 → Nat) = fun _ => 0 := funext fun a => by fin_cases a <;> rfl

/-- The row-blocked input windows are at block (t, 0) at point `t`. -/
theorem in_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- The bank and its labels are at block (0, 0) at every point. -/
theorem bank_index : ∀ t : Fin cfg0.N,
    (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The five output windows are at block (t, 0) at point `t`. -/
theorem out_index : ∀ t : Fin cfg0.N,
    (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The array row that row `p` of point `t`'s block is. -/
def rowOf (t : Fin cfg0.N) (p : Fin 256) : Fin 16384 :=
  ⟨t.val * 256 + p.val, by have ht : t.val < grid0.N := t.isLt; rw [N_0] at ht; have hp := p.isLt; omega⟩

theorem rowOf_val (t : Fin cfg0.N) (p : Fin 256) : (rowOf t p).val = t.val * 256 + p.val := rfl

/-! ## The input blocks, read where the arrays hold them -/

/-- The first feature matrix's block. -/
theorem in0 (c : Dev nD) (t : Fin cfg0.N) (p k : Fin 256) :
    iblk m c 0 t (ix2 p k) = V m c main_arg0 (ix2 (rowOf t p) k) := by
  obtain ⟨e0, e1⟩ := (in_index t).1
  show V m c main_arg0 (((cfg0.win 0).blk t).view.emb (ix2 p k)) = V m c main_arg0 (ix2 (rowOf t p) k)
  have h : ((cfg0.win 0).blk t).view.emb (ix2 p k) = ix2 (rowOf t p) k := by
    funext a; apply Fin.ext
    match a with
    | ⟨0, _⟩ => show win0_0.index t (0 : Fin 2) * 256 + 1 * p.val = t.val * 256 + p.val; omega
    | ⟨1, _⟩ => show win0_0.index t (1 : Fin 2) * 256 + 1 * k.val = k.val; omega
  rw [h]

/-- The second feature matrix's block. -/
theorem in1 (c : Dev nD) (t : Fin cfg0.N) (p k : Fin 256) :
    iblk m c 1 t (ix2 p k) = V m c main_arg1 (ix2 (rowOf t p) k) := by
  obtain ⟨e0, e1⟩ := (in_index t).2.1
  show V m c main_arg1 (((cfg0.win 1).blk t).view.emb (ix2 p k)) = V m c main_arg1 (ix2 (rowOf t p) k)
  have h : ((cfg0.win 1).blk t).view.emb (ix2 p k) = ix2 (rowOf t p) k := by
    funext a; apply Fin.ext
    match a with
    | ⟨0, _⟩ => show win0_1.index t (0 : Fin 2) * 256 + 1 * p.val = t.val * 256 + p.val; omega
    | ⟨1, _⟩ => show win0_1.index t (1 : Fin 2) * 256 + 1 * k.val = k.val; omega
  rw [h]

/-- The first label column's block. -/
theorem in2 (c : Dev nD) (t : Fin cfg0.N) (p : Fin 256) :
    iblk m c 2 t (ix2 p 0) = V m c main_v39 (ix2 (rowOf t p) 0) := by
  obtain ⟨e0, e1⟩ := (in_index t).2.2.1
  show V m c main_v39 (((cfg0.win 2).blk t).view.emb (ix2 p 0)) = V m c main_v39 (ix2 (rowOf t p) 0)
  have h : ((cfg0.win 2).blk t).view.emb (ix2 p 0) = ix2 (rowOf t p) 0 := by
    funext a; apply Fin.ext
    match a with
    | ⟨0, _⟩ => show win0_2.index t (0 : Fin 2) * 256 + 1 * p.val = t.val * 256 + p.val; omega
    | ⟨1, _⟩ => show win0_2.index t (1 : Fin 2) * 1 + 1 * 0 = 0; omega
  rw [h]

/-- The second label column's block. -/
theorem in3 (c : Dev nD) (t : Fin cfg0.N) (p : Fin 256) :
    iblk m c 3 t (ix2 p 0) = V m c main_v40 (ix2 (rowOf t p) 0) := by
  obtain ⟨e0, e1⟩ := (in_index t).2.2.2
  show V m c main_v40 (((cfg0.win 3).blk t).view.emb (ix2 p 0)) = V m c main_v40 (ix2 (rowOf t p) 0)
  have h : ((cfg0.win 3).blk t).view.emb (ix2 p 0) = ix2 (rowOf t p) 0 := by
    funext a; apply Fin.ext
    match a with
    | ⟨0, _⟩ => show win0_3.index t (0 : Fin 2) * 256 + 1 * p.val = t.val * 256 + p.val; omega
    | ⟨1, _⟩ => show win0_3.index t (1 : Fin 2) * 1 + 1 * 0 = 0; omega
  rw [h]

/-- The bank's one block is the whole transposed bank. -/
theorem in4 (c : Dev nD) (t : Fin cfg0.N) (k : Fin 256) (j : Fin 4096) :
    iblk m c 4 t (ix2 k j) = V m c main_v37 (ix2 k j) := by
  obtain ⟨e0, e1⟩ := (bank_index t).1
  show V m c main_v37 (((cfg0.win 4).blk t).view.emb (ix2 k j)) = V m c main_v37 (ix2 k j)
  have h : ((cfg0.win 4).blk t).view.emb (ix2 k j) = ix2 k j := by
    funext a; apply Fin.ext
    match a with
    | ⟨0, _⟩ => show win0_4.index t (0 : Fin 2) * 256 + 1 * k.val = k.val; omega
    | ⟨1, _⟩ => show win0_4.index t (1 : Fin 2) * 4096 + 1 * j.val = j.val; omega
  rw [h]

/-- The bank labels' one block is the whole row of labels. -/
theorem in5 (c : Dev nD) (t : Fin cfg0.N) (j : Fin 4096) :
    iblk m c 5 t (ix2 0 j) = V m c main_v38 (ix2 0 j) := by
  obtain ⟨e0, e1⟩ := (bank_index t).2
  show V m c main_v38 (((cfg0.win 5).blk t).view.emb (ix2 0 j)) = V m c main_v38 (ix2 0 j)
  have h : ((cfg0.win 5).blk t).view.emb (ix2 0 j) = ix2 0 j := by
    funext a; apply Fin.ext
    match a with
    | ⟨0, _⟩ => show win0_5.index t (0 : Fin 2) * 1 + 1 * 0 = 0; omega
    | ⟨1, _⟩ => show win0_5.index t (1 : Fin 2) * 4096 + 1 * j.val = j.val; omega
  rw [h]

/-! ## The output blocks: where they sit, and that they cover -/

/-- An index of output array 0 is in point `t`'s block iff each coordinate is in the block's range on its axis. -/
theorem mem_out6 (t : Fin cfg0.N) (i : S16384x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v41_0).slice (win0_6.rect t)).set ↔ _
  rw [View.set_slice_whole, Rect.mem_set_unit]
  exact Iff.rfl

/-- Every row of output array 0 is written back by the point that holds it: row `r` by point `r / 256`. -/
theorem cover_out6 (i : S16384x1.Idx) : ∃ t : Fin cfg0.N, (cfg0.win 6).flush t = true ∧ i ∈ ((cfg0.win 6).blk t).view.set := by
  have hi0 : (i 0).val < 16384 := (i 0).isLt
  have hi1 : (i 1).val < 1 := (i 1).isLt
  have hN : (i 0).val / 256 < grid0.N := by rw [N_0]; omega
  obtain ⟨e0, e1⟩ := (out_index ⟨(i 0).val / 256, hN⟩).1
  refine ⟨⟨(i 0).val / 256, hN⟩, flush0_6 _, ?_⟩
  rw [mem_out6]
  intro a
  match a with
  | ⟨0, _⟩ =>
    show win0_6.index ⟨(i 0).val / 256, hN⟩ (0 : Fin 2) * 256 ≤ (i 0).val ∧ (i 0).val < win0_6.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, hN⟩ (1 : Fin 2) * 1 ≤ (i 1).val ∧ (i 1).val < win0_6.index ⟨(i 0).val / 256, hN⟩ (1 : Fin 2) * 1 + 1
    rw [e1]; omega

/-- Row `p` of point `t`'s block of output array 0 is row `rowOf t p` of the array. -/
theorem emb_out6 (t : Fin cfg0.N) (p : Fin 256) :
    ((cfg0.win 6).blk t).view.emb (ix2 p 0) = ix2 (rowOf t p) 0 := by
  obtain ⟨e0, e1⟩ := (out_index t).1
  funext a; apply Fin.ext
  match a with
  | ⟨0, _⟩ => show win0_6.index t (0 : Fin 2) * 256 + 1 * p.val = t.val * 256 + p.val; omega
  | ⟨1, _⟩ => show win0_6.index t (1 : Fin 2) * 1 + 1 * 0 = 0; omega

/-- An index of output array 1 is in point `t`'s block iff each coordinate is in the block's range on its axis. -/
theorem mem_out7 (t : Fin cfg0.N) (i : S16384x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v41_1).slice (win0_7.rect t)).set ↔ _
  rw [View.set_slice_whole, Rect.mem_set_unit]
  exact Iff.rfl

/-- Every row of output array 1 is written back by the point that holds it: row `r` by point `r / 256`. -/
theorem cover_out7 (i : S16384x1.Idx) : ∃ t : Fin cfg0.N, (cfg0.win 7).flush t = true ∧ i ∈ ((cfg0.win 7).blk t).view.set := by
  have hi0 : (i 0).val < 16384 := (i 0).isLt
  have hi1 : (i 1).val < 1 := (i 1).isLt
  have hN : (i 0).val / 256 < grid0.N := by rw [N_0]; omega
  obtain ⟨e0, e1⟩ := (out_index ⟨(i 0).val / 256, hN⟩).2.1
  refine ⟨⟨(i 0).val / 256, hN⟩, flush0_7 _, ?_⟩
  rw [mem_out7]
  intro a
  match a with
  | ⟨0, _⟩ =>
    show win0_7.index ⟨(i 0).val / 256, hN⟩ (0 : Fin 2) * 256 ≤ (i 0).val ∧ (i 0).val < win0_7.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, hN⟩ (1 : Fin 2) * 1 ≤ (i 1).val ∧ (i 1).val < win0_7.index ⟨(i 0).val / 256, hN⟩ (1 : Fin 2) * 1 + 1
    rw [e1]; omega

/-- Row `p` of point `t`'s block of output array 1 is row `rowOf t p` of the array. -/
theorem emb_out7 (t : Fin cfg0.N) (p : Fin 256) :
    ((cfg0.win 7).blk t).view.emb (ix2 p 0) = ix2 (rowOf t p) 0 := by
  obtain ⟨e0, e1⟩ := (out_index t).2.1
  funext a; apply Fin.ext
  match a with
  | ⟨0, _⟩ => show win0_7.index t (0 : Fin 2) * 256 + 1 * p.val = t.val * 256 + p.val; omega
  | ⟨1, _⟩ => show win0_7.index t (1 : Fin 2) * 1 + 1 * 0 = 0; omega

/-- An index of output array 2 is in point `t`'s block iff each coordinate is in the block's range on its axis. -/
theorem mem_out8 (t : Fin cfg0.N) (i : S16384x1.Idx) :
    i ∈ ((cfg0.win 8).blk t).view.set ↔ ∀ a : Fin 2, win0_8.index t a * S256x1.size a ≤ (i a).val ∧ (i a).val < win0_8.index t a * S256x1.size a + S256x1.size a := by
  show i ∈ ((View.whole main_v41_2).slice (win0_8.rect t)).set ↔ _
  rw [View.set_slice_whole, Rect.mem_set_unit]
  exact Iff.rfl

/-- Every row of output array 2 is written back by the point that holds it: row `r` by point `r / 256`. -/
theorem cover_out8 (i : S16384x1.Idx) : ∃ t : Fin cfg0.N, (cfg0.win 8).flush t = true ∧ i ∈ ((cfg0.win 8).blk t).view.set := by
  have hi0 : (i 0).val < 16384 := (i 0).isLt
  have hi1 : (i 1).val < 1 := (i 1).isLt
  have hN : (i 0).val / 256 < grid0.N := by rw [N_0]; omega
  obtain ⟨e0, e1⟩ := (out_index ⟨(i 0).val / 256, hN⟩).2.2.1
  refine ⟨⟨(i 0).val / 256, hN⟩, flush0_8 _, ?_⟩
  rw [mem_out8]
  intro a
  match a with
  | ⟨0, _⟩ =>
    show win0_8.index ⟨(i 0).val / 256, hN⟩ (0 : Fin 2) * 256 ≤ (i 0).val ∧ (i 0).val < win0_8.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_8.index ⟨(i 0).val / 256, hN⟩ (1 : Fin 2) * 1 ≤ (i 1).val ∧ (i 1).val < win0_8.index ⟨(i 0).val / 256, hN⟩ (1 : Fin 2) * 1 + 1
    rw [e1]; omega

/-- Row `p` of point `t`'s block of output array 2 is row `rowOf t p` of the array. -/
theorem emb_out8 (t : Fin cfg0.N) (p : Fin 256) :
    ((cfg0.win 8).blk t).view.emb (ix2 p 0) = ix2 (rowOf t p) 0 := by
  obtain ⟨e0, e1⟩ := (out_index t).2.2.1
  funext a; apply Fin.ext
  match a with
  | ⟨0, _⟩ => show win0_8.index t (0 : Fin 2) * 256 + 1 * p.val = t.val * 256 + p.val; omega
  | ⟨1, _⟩ => show win0_8.index t (1 : Fin 2) * 1 + 1 * 0 = 0; omega

/-- An index of output array 3 is in point `t`'s block iff each coordinate is in the block's range on its axis. -/
theorem mem_out9 (t : Fin cfg0.N) (i : S16384x1.Idx) :
    i ∈ ((cfg0.win 9).blk t).view.set ↔ ∀ a : Fin 2, win0_9.index t a * S256x1.size a ≤ (i a).val ∧ (i a).val < win0_9.index t a * S256x1.size a + S256x1.size a := by
  show i ∈ ((View.whole main_v41_3).slice (win0_9.rect t)).set ↔ _
  rw [View.set_slice_whole, Rect.mem_set_unit]
  exact Iff.rfl

/-- Every row of output array 3 is written back by the point that holds it: row `r` by point `r / 256`. -/
theorem cover_out9 (i : S16384x1.Idx) : ∃ t : Fin cfg0.N, (cfg0.win 9).flush t = true ∧ i ∈ ((cfg0.win 9).blk t).view.set := by
  have hi0 : (i 0).val < 16384 := (i 0).isLt
  have hi1 : (i 1).val < 1 := (i 1).isLt
  have hN : (i 0).val / 256 < grid0.N := by rw [N_0]; omega
  obtain ⟨e0, e1⟩ := (out_index ⟨(i 0).val / 256, hN⟩).2.2.2.1
  refine ⟨⟨(i 0).val / 256, hN⟩, flush0_9 _, ?_⟩
  rw [mem_out9]
  intro a
  match a with
  | ⟨0, _⟩ =>
    show win0_9.index ⟨(i 0).val / 256, hN⟩ (0 : Fin 2) * 256 ≤ (i 0).val ∧ (i 0).val < win0_9.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_9.index ⟨(i 0).val / 256, hN⟩ (1 : Fin 2) * 1 ≤ (i 1).val ∧ (i 1).val < win0_9.index ⟨(i 0).val / 256, hN⟩ (1 : Fin 2) * 1 + 1
    rw [e1]; omega

/-- Row `p` of point `t`'s block of output array 3 is row `rowOf t p` of the array. -/
theorem emb_out9 (t : Fin cfg0.N) (p : Fin 256) :
    ((cfg0.win 9).blk t).view.emb (ix2 p 0) = ix2 (rowOf t p) 0 := by
  obtain ⟨e0, e1⟩ := (out_index t).2.2.2.1
  funext a; apply Fin.ext
  match a with
  | ⟨0, _⟩ => show win0_9.index t (0 : Fin 2) * 256 + 1 * p.val = t.val * 256 + p.val; omega
  | ⟨1, _⟩ => show win0_9.index t (1 : Fin 2) * 1 + 1 * 0 = 0; omega

/-- An index of output array 4 is in point `t`'s block iff each coordinate is in the block's range on its axis. -/
theorem mem_out10 (t : Fin cfg0.N) (i : S16384x1.Idx) :
    i ∈ ((cfg0.win 10).blk t).view.set ↔ ∀ a : Fin 2, win0_10.index t a * S256x1.size a ≤ (i a).val ∧ (i a).val < win0_10.index t a * S256x1.size a + S256x1.size a := by
  show i ∈ ((View.whole main_v41_4).slice (win0_10.rect t)).set ↔ _
  rw [View.set_slice_whole, Rect.mem_set_unit]
  exact Iff.rfl

/-- Every row of output array 4 is written back by the point that holds it: row `r` by point `r / 256`. -/
theorem cover_out10 (i : S16384x1.Idx) : ∃ t : Fin cfg0.N, (cfg0.win 10).flush t = true ∧ i ∈ ((cfg0.win 10).blk t).view.set := by
  have hi0 : (i 0).val < 16384 := (i 0).isLt
  have hi1 : (i 1).val < 1 := (i 1).isLt
  have hN : (i 0).val / 256 < grid0.N := by rw [N_0]; omega
  obtain ⟨e0, e1⟩ := (out_index ⟨(i 0).val / 256, hN⟩).2.2.2.2
  refine ⟨⟨(i 0).val / 256, hN⟩, flush0_10 _, ?_⟩
  rw [mem_out10]
  intro a
  match a with
  | ⟨0, _⟩ =>
    show win0_10.index ⟨(i 0).val / 256, hN⟩ (0 : Fin 2) * 256 ≤ (i 0).val ∧ (i 0).val < win0_10.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_10.index ⟨(i 0).val / 256, hN⟩ (1 : Fin 2) * 1 ≤ (i 1).val ∧ (i 1).val < win0_10.index ⟨(i 0).val / 256, hN⟩ (1 : Fin 2) * 1 + 1
    rw [e1]; omega

/-- Row `p` of point `t`'s block of output array 4 is row `rowOf t p` of the array. -/
theorem emb_out10 (t : Fin cfg0.N) (p : Fin 256) :
    ((cfg0.win 10).blk t).view.emb (ix2 p 0) = ix2 (rowOf t p) 0 := by
  obtain ⟨e0, e1⟩ := (out_index t).2.2.2.2
  funext a; apply Fin.ext
  match a with
  | ⟨0, _⟩ => show win0_10.index t (0 : Fin 2) * 256 + 1 * p.val = t.val * 256 + p.val; omega
  | ⟨1, _⟩ => show win0_10.index t (1 : Fin 2) * 1 + 1 * 0 = 0; omega

end Cert.Contrast.K

end
-- ==== Proof.RowSpec.lean ====
/-
  One row of the directional contrastive loss, on the extended reals.

  A row has a positive score `p` (the inner product of the row's two feature vectors over the temperature) and one
  score `q j` against each column `j` of a memory bank (the inner product of the row's anchor with the bank's row `j`,
  over the same temperature). From these the loss needs two numbers: the largest of all the scores, `rowMax p q`, and
  the shifted exponential sum `rowSum p q l ml` = exp (p - max) + the sum over the columns whose label `ml j` differs
  from the row's label `l` of exp (q j - max).

  Dividing by the temperature is multiplying by `invTemp`, the exact reciprocal of the real number 13421773 / 2^27
  that the single-precision word of 0.1 denotes.
-/
import Idealize.ShloMosaic.PureOps.Ideal

noncomputable section

namespace Cert.Contrast

open Idealize.ShloMosaic

/-- The reciprocal of the temperature: 1 / (13421773 / 134217728). -/
def invTemp : EReal := ((134217728 / 13421773 : ℝ) : EReal)

/-- A row's positive score: the inner product of its two feature vectors, over the temperature. -/
def posRow (u v : Fin 256 → EReal) : EReal := (∑ k, u k * v k) * invTemp

/-- A row's score against row `j` of a bank: the inner product of the anchor with that row, over the temperature. -/
def simRow {n : ℕ} (u : Fin 256 → EReal) (bank : Fin n → Fin 256 → EReal) (j : Fin n) : EReal :=
  (∑ k, u k * bank j k) * invTemp

/-- The largest of a row's scores: the positive score against the maximum over the bank, taken from -∞. -/
def rowMax {n : ℕ} (p : EReal) (q : Fin n → EReal) : EReal := max p (Finset.univ.fold max ⊥ q)

/-- The row's shifted exponential sum: the positive term, and one term for each column whose label differs from the row's. -/
def rowSum {n : ℕ} (p : EReal) (q : Fin n → EReal) (l : BitVec 32) (ml : Fin n → BitVec 32) : EReal :=
  Ideal.exp (p - rowMax p q) + ∑ j, if l ≠ ml j then Ideal.exp (q j - rowMax p q) else 0

end Cert.Contrast

end
-- ==== Proof.Pay.lean ====
/-
  The kernel body's arithmetic, read at an index on the extended reals.

  The body handles one block of 256 rows. Each of its values is a pointwise operation, a lane reduction, a cast, a
  broadcast or a matrix product of the values it loads; read at one row `p` (and one bank column `j`) each is the
  corresponding scalar expression of the row specification: the positive score `posRow`, the masked scores against
  the bank, the row maximum `rowMax` and the shifted exponential sums.
-/
import proofs.«168752_j88038239633768_1_alg».proof.Proof.Gen.KernelIdeal.Skeleton
import proofs.«168752_j88038239633768_1_alg».proof.Proof.RowSpec
import Idealize.ShloMosaic.Lib.ValueIdx
import Idealize.ShloMosaic.Lib.Pipeline.Value
import Idealize.ShloMosaic.Lib.ValueLayout
import Idealize.ShloMosaic.PureOps.Ideal.Laws

noncomputable section

namespace Cert.Contrast.Pay

open Cert.KernelIdeal Cert.KernelIdeal.Gen Idealize.ShloMosaic Idealize.ShloMosaic.ValueIdx Cert.Contrast

/-! ## Layout and reduction operations of an [a, b] matrix, read at coordinates -/

section Generic
variable {α : Type}

/-- An `[a]` vector cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the lanes to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Generic

/-- The index a lane reduction of an `[a, b]` matrix reads at row `p`, lane `k`, is `(p, k)`. -/
theorem lift_ix1 {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The lane sum of an `[a, b]` matrix, at row `p`, is the sum of that row's entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ src acc h hφ hacc (ix1 p) = ∑ k : Fin b, src (ix2 p k) := by
  rw [Ideal.multiReduction_add_single]
  exact Finset.sum_congr rfl fun k _ => congrArg src (lift_ix1 h p k)

/-- The lane maximum of an `[a, b]` matrix, at row `p`, is the maximum of that row's entries, taken from the
    accumulator's value. -/
theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction (F := Ideal) .maximumf [1] ⟨1, ![a]⟩ src acc h hφ hacc (ix1 p)
      = (Finset.univ : Finset (Fin b)).fold max (Ideal.ofBits φ acc) (fun k => src (ix2 p k)) := by
  rw [Ideal.multiReduction_maximumf_single]
  exact congrArg (Finset.fold max _ · Finset.univ) (funext fun k => congrArg src (lift_ix1 h p k))

/-- The single-precision word of minus infinity denotes the bottom of the extended reals. -/
theorem ofBits_negInf : Ideal.ofBits .f32 0xFF800000#32 = ⊥ := by
  simp [Ideal.ofBits, Ideal.ieee]

/-- A select on "the two words differ" is the `if` on their inequality. -/
theorem select_cmpi_ne {α : Type} {w : ℕ} (a b : BitVec w) (x y : α) :
    Scalar.select (IntOp.cmpi .ne a b) x y = if a ≠ b then x else y := by
  unfold Scalar.select IntOp.cmpi
  by_cases h : a = b
  · subst h; simp
  · have hb : (a != b) = true := by simpa using h
    rw [hb, if_pos h]
    exact if_pos rfl

/-! ## The named constants -/

/-- The kernel's named reciprocal of the temperature denotes, on the extended reals, the exact reciprocal. -/
theorem named_invTemp : Named.named (F := Ideal) Cert.KernelIdeal.κ "inv_temp" (φ := .f32) 0x41200000#32 = invTemp :=
  IdealRules.named_const.ideal_named_scalar _ _ _ _ rfl

/-- The kernel's named stand-in for minus infinity denotes the bottom of the extended reals. -/
theorem named_negBig : Named.named (F := Ideal) Cert.KernelIdeal.κ "neg_big" (φ := .f32) 0xF149F2CA#32 = ⊥ :=
  IdealRules.named_const.ideal_named_scalar _ _ _ _ rfl

/-! ## Casts to the same shape -/

theorem pay5_eq (v8 : Vec Ideal S256x4096 .bf16) : k0_pay5 (F := Ideal) v8 = v8 := shapeCast_self _ _
theorem pay9_eq (v25 : Vec Ideal S1x4096 .i32) : k0_pay9 (F := Ideal) v25 = v25 := shapeCast_self _ _
theorem pay10_eq (v27 : Vec Ideal S256x1 .i32) : k0_pay10 (F := Ideal) v27 = v27 := shapeCast_self _ _
theorem pay11_eq (v29 : Vec Ideal S256x1 .i32) : k0_pay11 (F := Ideal) v29 = v29 := shapeCast_self _ _

/-! ## The positive score, the row maxima and the shifted exponential sums -/

/-- The positive score of row `p`: the inner product of the row's two feature vectors, times the reciprocal of the
    temperature. -/
theorem pay4_row (x0 x1 : Vec Ideal S256x256 .f32) (p : Fin 256) :
    k0_pay4 (F := Ideal) x0 x1 (ix2 p 0) = posRow (fun k => x0 (ix2 p k)) (fun k => x1 (ix2 p k)) := by
  unfold k0_pay4 posRow
  dsimp only
  refine (mulf_apply _ _ _).trans (congrArg₂ (· * ·) ?_ named_invTemp)
  refine (shapeCast_a_a1_apply _ _ p 0).trans ?_
  exact laneSum_apply (a := 256) (b := 256) (mulf x0 x1) _ _ _ _ p

/-- The row maximum: the larger of the positive score and the largest score against the bank. -/
theorem pay2_row (v6 : FVec Ideal S256x1 .f32) (v24 : FVec Ideal S256x4096 .f32) (p : Fin 256) :
    k0_pay2 (F := Ideal) v6 v24 (ix2 p 0) = rowMax (v6 (ix2 p 0)) (fun j : Fin 4096 => v24 (ix2 p j)) := by
  unfold k0_pay2 rowMax
  dsimp only
  refine (maximumf_apply _ _ _).trans (congrArg (max (v6 (ix2 p 0))) ?_)
  refine (shapeCast_a_a1_apply _ _ p 0).trans ?_
  refine (laneMax_apply (a := 256) (b := 4096) v24 _ _ _ _ p).trans ?_
  rw [ofBits_negInf]

/-- The shifted exponential sum of row `p` against a given shift `v33`: the positive term, and one term for each bank
    column whose label differs from the row's. -/
theorem pay1_row (v6 : FVec Ideal S256x1 .f32) (v22 : FVec Ideal S256x4096 .f32) (v26 : IVec S1x4096 32)
    (v28 : IVec S256x1 32) (v33 : FVec Ideal S256x1 .f32) (p : Fin 256) :
    k0_pay1 (F := Ideal) v6 v22 v26 v28 v33 (ix2 p 0)
      = Ideal.exp (v6 (ix2 p 0) - v33 (ix2 p 0))
        + ∑ j : Fin 4096, if v28 (ix2 p 0) ≠ v26 (ix2 0 j) then Ideal.exp (v22 (ix2 p j) - v33 (ix2 p 0)) else 0 := by
  unfold k0_pay1
  dsimp only
  refine (addf_apply _ _ _).trans (congrArg₂ (· + ·) rfl ?_)
  refine (shapeCast_a_a1_apply _ _ p 0).trans ?_
  refine (laneSum_apply (a := 256) (b := 4096) _ _ _ _ _ p).trans ?_
  refine Finset.sum_congr rfl fun j _ => ?_
  refine (select_apply _ _ _ _).trans ?_
  show Scalar.select (IntOp.cmpi .ne (broadcastTo S256x4096 v28 _ (ix2 p j)) (broadcastTo S256x4096 v26 _ (ix2 p j)))
      (Ideal.exp (v22 (ix2 p j) - broadcastTo S256x4096 v33 _ (ix2 p j))) (Ideal.ofBits .f32 0x00000000#32) = _
  rw [broadcastTo_a1_ab_apply v28, broadcastTo_1b_ab_apply v26, broadcastTo_a1_ab_apply v33, Ideal.ofBits_zero_f32,
    select_cmpi_ne]

/-- The shifted exponential sum of row `p` for the second anchor, shifted by that anchor's own row maximum. -/
theorem pay3_row (v6 : FVec Ideal S256x1 .f32) (v24 : FVec Ideal S256x4096 .f32) (v26 : IVec S1x4096 32)
    (v30 : IVec S256x1 32) (p : Fin 256) :
    k0_pay3 (F := Ideal) v6 v24 v26 v30 (ix2 p 0)
      = Ideal.exp (v6 (ix2 p 0) - k0_pay2 (F := Ideal) v6 v24 (ix2 p 0))
        + ∑ j : Fin 4096, if v30 (ix2 p 0) ≠ v26 (ix2 0 j)
            then Ideal.exp (v24 (ix2 p j) - k0_pay2 (F := Ideal) v6 v24 (ix2 p 0)) else 0 := by
  unfold k0_pay3
  dsimp only
  refine (addf_apply _ _ _).trans (congrArg₂ (· + ·) rfl ?_)
  refine (shapeCast_a_a1_apply _ _ p 0).trans ?_
  refine (laneSum_apply (a := 256) (b := 4096) _ _ _ _ _ p).trans ?_
  refine Finset.sum_congr rfl fun j _ => ?_
  refine (select_apply _ _ _ _).trans ?_
  show Scalar.select (IntOp.cmpi .ne (broadcastTo S256x4096 v30 _ (ix2 p j)) (broadcastTo S256x4096 v26 _ (ix2 p j)))
      (Ideal.exp (v24 (ix2 p j) - broadcastTo S256x4096 (k0_pay2 (F := Ideal) v6 v24) _ (ix2 p j)))
      (Ideal.ofBits .f32 0x00000000#32) = _
  rw [broadcastTo_a1_ab_apply v30, broadcastTo_1b_ab_apply v26, broadcastTo_a1_ab_apply (k0_pay2 (F := Ideal) v6 v24),
    Ideal.ofBits_zero_f32, select_cmpi_ne]

/-! ## The scores against the bank: a matrix product, scaled, with the padding columns masked -/

/-- For a column index below 4096, the signed comparison of its 32-bit word with 4000 is the comparison of naturals. -/
theorem slt_ofNat_4000 (n : ℕ) (hn : n < 4096) : (BitVec.ofNat 32 n).slt 4000#32 = decide (n < 4000) := by
  have h1 : (BitVec.ofNat 32 n).toInt = (n : ℤ) := by
    rw [BitVec.toInt_eq_toNat_cond, BitVec.toNat_ofNat, Nat.mod_eq_of_lt (by omega)]
    rw [if_pos (by omega)]
  have h2 : (4000#32 : BitVec 32).toInt = 4000 := by decide
  rw [BitVec.slt, h1, h2]
  by_cases h : n < 4000
  · rw [decide_eq_true h]; exact decide_eq_true (by omega)
  · rw [decide_eq_false h]; exact decide_eq_false (by omega)

/-- The column mask at `(p, j)`: a select on it keeps its first operand on the bank's 4000 true columns and takes
    its second on the padding. -/
theorem select_pay6 {α : Type} (p : Fin 256) (j : Fin 4096) (x y : α) :
    Scalar.select (k0_pay6 (ix2 p j)) x y = if j.val < 4000 then x else y := by
  unfold k0_pay6
  dsimp only
  show Scalar.select (IntOp.cmpi .slt (iota .tc S256x4096 32 [1] _ (ix2 p j)) (4000#32)) x y = _
  rw [iota_single_apply]
  show Scalar.select (BitVec.ofBool ((BitVec.ofNat 32 j.val).slt 4000#32)) x y = _
  rw [slt_ofNat_4000 _ j.isLt]
  by_cases h : j.val < 4000
  · rw [decide_eq_true h, if_pos h]; exact if_pos rfl
  · rw [decide_eq_false h, if_neg h]; exact if_neg (by decide)

/-- The left operand's index of the product at output `i`, contraction position `q`: its row is the output's row … -/
theorem dot_lhs0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide),
    dif_pos (show (0 : Fin S256x256.rank) ∈ dot_S256x256_S256x4096_S256x4096_1_0_0_1_n_n.lhsNonContracting by decide)]
  rfl
/-- … and its column the contraction position; -/
theorem dot_lhs1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
/-- the right operand's row is the contraction position … -/
theorem dot_rhs0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
/-- … and its column the output's column. -/
theorem dot_rhs1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide),
    dif_pos (show (1 : Fin S256x4096.rank) ∈ dot_S256x256_S256x4096_S256x4096_1_0_0_1_n_n.rhsNonContracting by decide)]
  rfl

/-- The body's matrix product into a zero accumulator, at `(p, j)`: row `p` of the left operand against column `j` of
    the right one. -/
theorem matmul_at (A : FVec Ideal S256x256 .bf16) (B : FVec Ideal S256x4096 .bf16) (p : Fin 256) (j : Fin 4096) :
    matmul (F := Ideal) dot_S256x256_S256x4096_S256x4096_1_0_0_1_n_n none A B (constant S256x4096 .f32 0x00000000#32) (ix2 p j)
      = ∑ k : Fin 256, A (ix2 p k) * B (ix2 k j) := by
  simp only [matmul]
  rw [Ideal.matmul_constant_zero_apply,
    ← Equiv.sum_comp (contrEquiv1 dot_S256x256_S256x4096_S256x4096_1_0_0_1_n_n 256 rfl rfl).symm]
  refine Finset.sum_congr rfl fun k _ => ?_
  have hk := contrEquiv1_symm_val dot_S256x256_S256x4096_S256x4096_1_0_0_1_n_n 256 rfl rfl k
  have el : dot_S256x256_S256x4096_S256x4096_1_0_0_1_n_n.lhsIdx (ix2 p j)
      ((contrEquiv1 dot_S256x256_S256x4096_S256x4096_1_0_0_1_n_n 256 rfl rfl).symm k) = ix2 p k :=
    funext fun a => Fin.ext (by
      match a with
      | ⟨0, _⟩ => exact dot_lhs0 _ _
      | ⟨1, _⟩ => exact (dot_lhs1 _ _).trans hk)
  have er : dot_S256x256_S256x4096_S256x4096_1_0_0_1_n_n.rhsIdx (ix2 p j)
      ((contrEquiv1 dot_S256x256_S256x4096_S256x4096_1_0_0_1_n_n 256 rfl rfl).symm k) = ix2 k j :=
    funext fun a => Fin.ext (by
      match a with
      | ⟨0, _⟩ => exact (dot_rhs0 _ _).trans hk
      | ⟨1, _⟩ => exact dot_rhs1 _ _)
  rw [el, er]

/-- The scores of the first anchor against the bank, at row `p` and column `j`: the inner product over the
    temperature on the bank's true columns, minus infinity on the padding. -/
theorem pay7_at (x0 : Vec Ideal S256x256 .f32) (x4 : Vec Ideal S256x4096 .bf16) (p : Fin 256) (j : Fin 4096) :
    k0_pay7 (F := Ideal) x0 x4 (ix2 p j)
      = if j.val < 4000 then (∑ k : Fin 256, x0 (ix2 p k) * x4 (ix2 k j)) * invTemp else ⊥ := by
  unfold k0_pay7
  refine (select_apply _ _ _ _).trans ?_
  rw [select_pay6, pay5_eq]
  refine congrArg₂ (fun a b => if j.val < 4000 then a else b) ?_ named_negBig
  refine (mulf_apply _ _ _).trans (congrArg₂ (· * ·) ?_ named_invTemp)
  exact matmul_at _ _ p j

/-- The same for the second anchor. -/
theorem pay8_at (x1 : Vec Ideal S256x256 .f32) (x4 : Vec Ideal S256x4096 .bf16) (p : Fin 256) (j : Fin 4096) :
    k0_pay8 (F := Ideal) x1 x4 (ix2 p j)
      = if j.val < 4000 then (∑ k : Fin 256, x1 (ix2 p k) * x4 (ix2 k j)) * invTemp else ⊥ := by
  unfold k0_pay8
  refine (select_apply _ _ _ _).trans ?_
  rw [select_pay6, pay5_eq]
  refine congrArg₂ (fun a b => if j.val < 4000 then a else b) ?_ named_negBig
  refine (mulf_apply _ _ _).trans (congrArg₂ (· * ·) ?_ named_invTemp)
  exact matmul_at _ _ p j

/-- The first anchor's row maximum: the row maximum of its positive score and its scores against the bank. -/
theorem pay12_row (x0 x1 : Vec Ideal S256x256 .f32) (x4 : Vec Ideal S256x4096 .bf16) (p : Fin 256) :
    k0_pay12 (F := Ideal) x0 x1 x4 (ix2 p 0)
      = rowMax (k0_pay4 (F := Ideal) x0 x1 (ix2 p 0)) (fun j : Fin 4096 => k0_pay7 (F := Ideal) x0 x4 (ix2 p j)) :=
  pay2_row (k0_pay4 (F := Ideal) x0 x1) (k0_pay7 (F := Ideal) x0 x4) p

end Cert.Contrast.Pay

end
-- ==== Proof.BlockRows.lean ====
/-
  One block of the kernel, row by row.

  The body handles 256 rows at a time. For a row `p` of the block, with the row's two feature vectors `u`, `v`, its two
  labels, and the whole memory bank as the body sees it — transposed, and widened from 4000 to 4096 columns —, the
  five values the body stores are the row's positive score, and for each of the two anchors the row maximum and the
  shifted exponential sum of the specification, taken against the scores `paddedScores`: the real score below column 4000
  and -∞ from column 4000 on.
-/
import proofs.«168752_j88038239633768_1_alg».proof.Proof.Pay
import proofs.«168752_j88038239633768_1_alg».proof.Proof.RowSpec
import Idealize.ShloMosaic.Lib.ValueIdx

noncomputable section

namespace Cert.Contrast

open Idealize.ShloMosaic Idealize.ShloMosaic.ValueIdx
open Cert.KernelIdeal Cert.KernelIdeal.Gen Cert.Contrast.Pay

/-- A row's scores against the widened bank: the real score below column 4000, -∞ on the 96 columns added. -/
def paddedScores (u : Fin 256 → EReal) (bank : Fin 4096 → Fin 256 → EReal) : Fin 4096 → EReal :=
  fun j => if j.val < 4000 then simRow u bank j else ⊥

section
variable (x0 x1 : Vec Ideal S256x256 .f32) (x2 x3 : Vec Ideal S256x1 .i32) (x4 : Vec Ideal S256x4096 .bf16)
  (x5 : Vec Ideal S1x4096 .i32) (p : Fin 256)
  (u v : Fin 256 → EReal) (bank : Fin 4096 → Fin 256 → EReal) (l1 l2 : BitVec 32) (ml : Fin 4096 → BitVec 32)

/-- The positive score of row `p`. -/
theorem block_pos (hu : ∀ k, x0 (ix2 p k) = u k) (hv : ∀ k, x1 (ix2 p k) = v k) :
    k0_pay4 (F := Ideal) x0 x1 (ix2 p 0) = posRow u v := by
  rw [pay4_row]
  exact congrArg₂ posRow (funext hu) (funext hv)

/-- The scores of row `p`, anchored at the first feature vector, against the widened bank. -/
theorem block_scores1 (hu : ∀ k, x0 (ix2 p k) = u k) (hb : ∀ k j, x4 (ix2 k j) = bank j k) (j : Fin 4096) :
    k0_pay7 (F := Ideal) x0 x4 (ix2 p j) = paddedScores u bank j := by
  rw [pay7_at]
  unfold paddedScores simRow
  simp only [hu, hb]

/-- The same anchored at the second feature vector. -/
theorem block_scores2 (hv : ∀ k, x1 (ix2 p k) = v k) (hb : ∀ k j, x4 (ix2 k j) = bank j k) (j : Fin 4096) :
    k0_pay8 (F := Ideal) x1 x4 (ix2 p j) = paddedScores v bank j := by
  rw [pay8_at]
  unfold paddedScores simRow
  simp only [hv, hb]

/-- The first anchor's row maximum. -/
theorem block_max1 (hu : ∀ k, x0 (ix2 p k) = u k) (hv : ∀ k, x1 (ix2 p k) = v k) (hb : ∀ k j, x4 (ix2 k j) = bank j k) :
    k0_pay12 (F := Ideal) x0 x1 x4 (ix2 p 0) = rowMax (posRow u v) (paddedScores u bank) := by
  rw [pay12_row, block_pos x0 x1 p u v hu hv]
  exact congrArg (rowMax (posRow u v)) (funext fun j => block_scores1 x0 x4 p u bank hu hb j)

/-- The second anchor's row maximum. -/
theorem block_max2 (hu : ∀ k, x0 (ix2 p k) = u k) (hv : ∀ k, x1 (ix2 p k) = v k) (hb : ∀ k j, x4 (ix2 k j) = bank j k) :
    k0_pay2 (F := Ideal) (k0_pay4 (F := Ideal) x0 x1) (k0_pay8 (F := Ideal) x1 x4) (ix2 p 0) = rowMax (posRow u v) (paddedScores v bank) := by
  rw [pay2_row, block_pos x0 x1 p u v hu hv]
  exact congrArg (rowMax (posRow u v)) (funext fun j => block_scores2 x1 x4 p v bank hv hb j)

/-- The first anchor's shifted exponential sum. -/
theorem block_sum1 (hu : ∀ k, x0 (ix2 p k) = u k) (hv : ∀ k, x1 (ix2 p k) = v k) (hb : ∀ k j, x4 (ix2 k j) = bank j k)
    (hl : x2 (ix2 p 0) = l1) (hml : ∀ j, x5 (ix2 0 j) = ml j) :
    k0_pay1 (F := Ideal) (k0_pay4 (F := Ideal) x0 x1) (k0_pay7 (F := Ideal) x0 x4) (k0_pay9 (F := Ideal) x5) (k0_pay10 (F := Ideal) x2)
        (k0_pay12 (F := Ideal) x0 x1 x4) (ix2 p 0)
      = rowSum (posRow u v) (paddedScores u bank) l1 ml := by
  rw [pay1_row, pay9_eq, pay10_eq, block_max1 x0 x1 x4 p u v bank hu hv hb, block_pos x0 x1 p u v hu hv, hl]
  unfold rowSum
  refine congrArg (_ + ·) (Finset.sum_congr rfl fun j _ => ?_)
  rw [block_scores1 x0 x4 p u bank hu hb j, hml j]

/-- The second anchor's shifted exponential sum. -/
theorem block_sum2 (hu : ∀ k, x0 (ix2 p k) = u k) (hv : ∀ k, x1 (ix2 p k) = v k) (hb : ∀ k j, x4 (ix2 k j) = bank j k)
    (hl : x3 (ix2 p 0) = l2) (hml : ∀ j, x5 (ix2 0 j) = ml j) :
    k0_pay3 (F := Ideal) (k0_pay4 (F := Ideal) x0 x1) (k0_pay8 (F := Ideal) x1 x4) (k0_pay9 (F := Ideal) x5) (k0_pay11 (F := Ideal) x3) (ix2 p 0)
      = rowSum (posRow u v) (paddedScores v bank) l2 ml := by
  rw [pay3_row, pay9_eq, pay11_eq, block_max2 x0 x1 x4 p u v bank hu hv hb, block_pos x0 x1 p u v hu hv, hl]
  unfold rowSum
  refine congrArg (_ + ·) (Finset.sum_congr rfl fun j _ => ?_)
  rw [block_scores2 x1 x4 p v bank hv hb j, hml j]

end

end Cert.Contrast

end
-- ==== Proof.OutArrays.lean ====
/-
  The five arrays the region leaves.

  Each output array [16384, 1] ends, row by row, at the specification's row quantity of the rows the region finds:
  row `r` of the two feature matrices, its two labels, and the bank as the region sees it (transposed, 4096 columns).
  What point `t` writes back is rows 256·t … 256·t + 255 of that function, and the sixty-four blocks cover the array.
-/
import proofs.«168752_j88038239633768_1_alg».proof.Proof.Blocks
import proofs.«168752_j88038239633768_1_alg».proof.Proof.BlockRows

set_option maxRecDepth 16384

noncomputable section

namespace Cert.Contrast.K

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP Cert.Contrast

variable (m : (ℓ : Loc nD τ sig) → Buf (Elt Ideal) ℓ)

/-- Row `r` of the first feature matrix, as the region finds it. -/
def featA (c : Dev nD) (r : Fin 16384) : Fin 256 → EReal := fun k => V m c main_arg0 (ix2 r k)
/-- Row `r` of the second feature matrix. -/
def featB (c : Dev nD) (r : Fin 16384) : Fin 256 → EReal := fun k => V m c main_arg1 (ix2 r k)
/-- Row `r`'s first label. -/
def labelA (c : Dev nD) (r : Fin 16384) : BitVec 32 := V m c main_v39 (ix2 r 0)
/-- Row `r`'s second label. -/
def labelB (c : Dev nD) (r : Fin 16384) : BitVec 32 := V m c main_v40 (ix2 r 0)
/-- The bank as the region sees it: column `j` of the transposed, widened bank is its row `j`. -/
def bankT (c : Dev nD) : Fin 4096 → Fin 256 → EReal := fun j k => V m c main_v37 (ix2 k j)
/-- The widened bank's labels. -/
def bankLabelT (c : Dev nD) : Fin 4096 → BitVec 32 := fun j => V m c main_v38 (ix2 0 j)

/-- The positive scores. -/
def outPos (c : Dev nD) : S16384x1.Idx → EReal := fun i => posRow (featA m c (i 0)) (featB m c (i 0))
/-- The first anchor's row maxima. -/
def outMax1 (c : Dev nD) : S16384x1.Idx → EReal := fun i =>
  rowMax (posRow (featA m c (i 0)) (featB m c (i 0))) (paddedScores (featA m c (i 0)) (bankT m c))
/-- The first anchor's sums. -/
def outSum1 (c : Dev nD) : S16384x1.Idx → EReal := fun i =>
  rowSum (posRow (featA m c (i 0)) (featB m c (i 0))) (paddedScores (featA m c (i 0)) (bankT m c)) (labelA m c (i 0)) (bankLabelT m c)
/-- The second anchor's row maxima. -/
def outMax2 (c : Dev nD) : S16384x1.Idx → EReal := fun i =>
  rowMax (posRow (featA m c (i 0)) (featB m c (i 0))) (paddedScores (featB m c (i 0)) (bankT m c))
/-- The second anchor's sums. -/
def outSum2 (c : Dev nD) : S16384x1.Idx → EReal := fun i =>
  rowSum (posRow (featA m c (i 0)) (featB m c (i 0))) (paddedScores (featB m c (i 0)) (bankT m c)) (labelB m c (i 0)) (bankLabelT m c)

/-! ## What each point writes back -/

/-- Point `t` writes back its rows of the positive scores. -/
theorem flushed_pos (c : Dev nD) (t : Fin cfg0.N) :
    (dats m 0 c).flushed 6 t = ((cfg0.win 6).blk t).view.read (Elt Ideal) (outPos m c) := by
  show (cfg0.win 6).cut (grid0.coords t) ((dats m 0 c).after 6 t) = _
  rw [after0_6]
  unfold out0_6
  rw [View.canon_unit_zero hz]
  simp only [View.ld_unit_zero (S := S256x256) hz]
  funext y
  obtain ⟨p, q, rfl⟩ : ∃ (p : Fin 256) (q : Fin 1), y = ix2 p q := ⟨y 0, y 1, eq_ix2 y⟩
  obtain rfl : q = 0 := Subsingleton.elim _ _
  show k0_pay4 (F := Ideal) (iblk m c 0 t) (iblk m c 1 t) (ix2 p 0) = outPos m c (((cfg0.win 6).blk t).view.emb (ix2 p 0))
  rw [emb_out6 t p]
  exact block_pos (iblk m c 0 t) (iblk m c 1 t) p (featA m c (rowOf t p)) (featB m c (rowOf t p)) (fun k => in0 m c t p k) (fun k => in1 m c t p k)

/-- The array of positive scores after the run. -/
theorem final_pos (c : Dev nD) : (dats m 0 c).arrAt 6 cfg0.N = outPos m c :=
  (dats m 0 c).arrAt_eq_of_cover 6 (outPos m c) (fun t _ => flushed_pos m c t) cover_out6

/-- Point `t` writes back its rows of the first anchor's row maxima. -/
theorem flushed_max1 (c : Dev nD) (t : Fin cfg0.N) :
    (dats m 0 c).flushed 7 t = ((cfg0.win 7).blk t).view.read (Elt Ideal) (outMax1 m c) := by
  show (cfg0.win 7).cut (grid0.coords t) ((dats m 0 c).after 7 t) = _
  rw [after0_7]
  unfold out0_7
  rw [View.canon_unit_zero hz]
  simp only [View.ld_unit_zero (S := S256x256) hz, View.ld_unit_zero (S := S256x4096) hz]
  funext y
  obtain ⟨p, q, rfl⟩ : ∃ (p : Fin 256) (q : Fin 1), y = ix2 p q := ⟨y 0, y 1, eq_ix2 y⟩
  obtain rfl : q = 0 := Subsingleton.elim _ _
  show k0_pay12 (F := Ideal) (iblk m c 0 t) (iblk m c 1 t) (iblk m c 4 t) (ix2 p 0) = outMax1 m c (((cfg0.win 7).blk t).view.emb (ix2 p 0))
  rw [emb_out7 t p]
  exact block_max1 (iblk m c 0 t) (iblk m c 1 t) (iblk m c 4 t) p (featA m c (rowOf t p)) (featB m c (rowOf t p)) (bankT m c) (fun k => in0 m c t p k) (fun k => in1 m c t p k) (fun k j => in4 m c t k j)

/-- The array of the first anchor's row maxima after the run. -/
theorem final_max1 (c : Dev nD) : (dats m 0 c).arrAt 7 cfg0.N = outMax1 m c :=
  (dats m 0 c).arrAt_eq_of_cover 7 (outMax1 m c) (fun t _ => flushed_max1 m c t) cover_out7

/-- Point `t` writes back its rows of the first anchor's sums. -/
theorem flushed_sum1 (c : Dev nD) (t : Fin cfg0.N) :
    (dats m 0 c).flushed 8 t = ((cfg0.win 8).blk t).view.read (Elt Ideal) (outSum1 m c) := by
  show (cfg0.win 8).cut (grid0.coords t) ((dats m 0 c).after 8 t) = _
  rw [after0_8]
  unfold out0_8
  rw [View.canon_unit_zero hz]
  simp only [View.ld_unit_zero (S := S256x256) hz, View.ld_unit_zero (S := S256x4096) hz, View.ld_unit_zero (S := S1x4096) hz, View.ld_unit_zero (S := S256x1) hz]
  funext y
  obtain ⟨p, q, rfl⟩ : ∃ (p : Fin 256) (q : Fin 1), y = ix2 p q := ⟨y 0, y 1, eq_ix2 y⟩
  obtain rfl : q = 0 := Subsingleton.elim _ _
  show k0_pay1 (F := Ideal) (k0_pay4 (F := Ideal) (iblk m c 0 t) (iblk m c 1 t)) (k0_pay7 (F := Ideal) (iblk m c 0 t) (iblk m c 4 t)) (k0_pay9 (F := Ideal) (iblk m c 5 t)) (k0_pay10 (F := Ideal) (iblk m c 2 t)) (k0_pay12 (F := Ideal) (iblk m c 0 t) (iblk m c 1 t) (iblk m c 4 t)) (ix2 p 0) = outSum1 m c (((cfg0.win 8).blk t).view.emb (ix2 p 0))
  rw [emb_out8 t p]
  exact block_sum1 (iblk m c 0 t) (iblk m c 1 t) (iblk m c 2 t) (iblk m c 4 t) (iblk m c 5 t) p (featA m c (rowOf t p)) (featB m c (rowOf t p)) (bankT m c) (labelA m c (rowOf t p)) (bankLabelT m c) (fun k => in0 m c t p k) (fun k => in1 m c t p k) (fun k j => in4 m c t k j) (in2 m c t p) (fun j => in5 m c t j)

/-- The array of the first anchor's sums after the run. -/
theorem final_sum1 (c : Dev nD) : (dats m 0 c).arrAt 8 cfg0.N = outSum1 m c :=
  (dats m 0 c).arrAt_eq_of_cover 8 (outSum1 m c) (fun t _ => flushed_sum1 m c t) cover_out8

/-- Point `t` writes back its rows of the second anchor's row maxima. -/
theorem flushed_max2 (c : Dev nD) (t : Fin cfg0.N) :
    (dats m 0 c).flushed 9 t = ((cfg0.win 9).blk t).view.read (Elt Ideal) (outMax2 m c) := by
  show (cfg0.win 9).cut (grid0.coords t) ((dats m 0 c).after 9 t) = _
  rw [after0_9]
  unfold out0_9
  rw [View.canon_unit_zero hz]
  simp only [View.ld_unit_zero (S := S256x256) hz, View.ld_unit_zero (S := S256x4096) hz]
  funext y
  obtain ⟨p, q, rfl⟩ : ∃ (p : Fin 256) (q : Fin 1), y = ix2 p q := ⟨y 0, y 1, eq_ix2 y⟩
  obtain rfl : q = 0 := Subsingleton.elim _ _
  show k0_pay2 (F := Ideal) (k0_pay4 (F := Ideal) (iblk m c 0 t) (iblk m c 1 t)) (k0_pay8 (F := Ideal) (iblk m c 1 t) (iblk m c 4 t)) (ix2 p 0) = outMax2 m c (((cfg0.win 9).blk t).view.emb (ix2 p 0))
  rw [emb_out9 t p]
  exact block_max2 (iblk m c 0 t) (iblk m c 1 t) (iblk m c 4 t) p (featA m c (rowOf t p)) (featB m c (rowOf t p)) (bankT m c) (fun k => in0 m c t p k) (fun k => in1 m c t p k) (fun k j => in4 m c t k j)

/-- The array of the second anchor's row maxima after the run. -/
theorem final_max2 (c : Dev nD) : (dats m 0 c).arrAt 9 cfg0.N = outMax2 m c :=
  (dats m 0 c).arrAt_eq_of_cover 9 (outMax2 m c) (fun t _ => flushed_max2 m c t) cover_out9

/-- Point `t` writes back its rows of the second anchor's sums. -/
theorem flushed_sum2 (c : Dev nD) (t : Fin cfg0.N) :
    (dats m 0 c).flushed 10 t = ((cfg0.win 10).blk t).view.read (Elt Ideal) (outSum2 m c) := by
  show (cfg0.win 10).cut (grid0.coords t) ((dats m 0 c).after 10 t) = _
  rw [after0_10]
  unfold out0_10
  rw [View.canon_unit_zero hz]
  simp only [View.ld_unit_zero (S := S256x256) hz, View.ld_unit_zero (S := S256x4096) hz, View.ld_unit_zero (S := S1x4096) hz, View.ld_unit_zero (S := S256x1) hz]
  funext y
  obtain ⟨p, q, rfl⟩ : ∃ (p : Fin 256) (q : Fin 1), y = ix2 p q := ⟨y 0, y 1, eq_ix2 y⟩
  obtain rfl : q = 0 := Subsingleton.elim _ _
  show k0_pay3 (F := Ideal) (k0_pay4 (F := Ideal) (iblk m c 0 t) (iblk m c 1 t)) (k0_pay8 (F := Ideal) (iblk m c 1 t) (iblk m c 4 t)) (k0_pay9 (F := Ideal) (iblk m c 5 t)) (k0_pay11 (F := Ideal) (iblk m c 3 t)) (ix2 p 0) = outSum2 m c (((cfg0.win 10).blk t).view.emb (ix2 p 0))
  rw [emb_out10 t p]
  exact block_sum2 (iblk m c 0 t) (iblk m c 1 t) (iblk m c 3 t) (iblk m c 4 t) (iblk m c 5 t) p (featA m c (rowOf t p)) (featB m c (rowOf t p)) (bankT m c) (labelB m c (rowOf t p)) (bankLabelT m c) (fun k => in0 m c t p k) (fun k => in1 m c t p k) (fun k j => in4 m c t k j) (in3 m c t p) (fun j => in5 m c t j)

/-- The array of the second anchor's sums after the run. -/
theorem final_sum2 (c : Dev nD) : (dats m 0 c).arrAt 10 cfg0.N = outSum2 m c :=
  (dats m 0 c).arrAt_eq_of_cover 10 (outSum2 m c) (fun t _ => flushed_sum2 m c t) cover_out10

end Cert.Contrast.K

end
-- ==== Proof.LibAfter.lean ====
/-
  The contents a straight line of host operations leaves, over a concatenation of two lines: running the
  first line and then the second from what the first left is running their concatenation.
-/
import Idealize.ShloMosaic.Lib.StableHlo.Run

namespace Cert.Bridge.LibAfter

open Idealize.ShloMosaic

variable {τ : Topo} {sig : RefSig} {Val : EltTy → Type}

/-- The buffers after the line `l₁ ++ l₂` from contents `V` are the buffers after `l₂` from what `l₁` leaves
    from `V`: the fold that defines `after` walks the first list, then the second. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => rw [List.cons_append, StableHlo.after_cons, StableHlo.after_cons, ih]

end Cert.Bridge.LibAfter
-- ==== Proof.Prelude.lean ====
/-
  What the region finds.

  Before the region the host builds the memory bank (two gathers of the re-laid feature maps, joined: 4000 rows of 256
  channels) and its labels, widens both to 4096 (the bank by 96 rows of zeros, the labels by 96 entries of -1), casts
  and transposes the bank, and turns the two label vectors into columns. The bank and its labels are computed by the
  same operations, on the same arguments, as in the reference: the two terms are one.
-/
import proofs.«168752_j88038239633768_1_alg».proof.Proof.KernelIdealFrameP
import proofs.«168752_j88038239633768_1_alg».proof.Proof.Gen.ReferenceIdeal.Read
import proofs.«168752_j88038239633768_1_alg».proof.Proof.LibAfter
import Idealize.ShloMosaic.Lib.StableHlo.Run

set_option maxRecDepth 16384

noncomputable section

namespace Cert.Contrast.K

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ)

/-- The region-entry contents, one stretch of host operations after another. -/
theorem entry_split (c : Dev nD) : V0 m c = StableHlo.after hostOps0_4 (StableHlo.after hostOps0_3 (StableHlo.after hostOps0_2
    (StableHlo.after hostOps0_1 (StableHlo.after hostOps0 (fun b => m (c, b)))))) := by
  show StableHlo.after (hostOps0 ++ (hostOps0_1 ++ (hostOps0_2 ++ (hostOps0_3 ++ (hostOps0_4 ++ []))))) _ = _
  rw [Cert.Bridge.LibAfter.after_append, Cert.Bridge.LibAfter.after_append, Cert.Bridge.LibAfter.after_append,
    Cert.Bridge.LibAfter.after_append, List.append_nil]

/-- The memory bank the host builds, [4000, 256]: the reference's bank of the same arguments. -/
def bankK (c : Dev nD) : S4000x256.Idx → EReal :=
  Cert.ReferenceIdeal.Read.val_main_v18 (F := Ideal) (m ((c : Thread nD τ).loc main_arg6)) (m ((c : Thread nD τ).loc main_arg7))
    (m ((c : Thread nD τ).loc main_arg8)) (m ((c : Thread nD τ).loc main_arg9))

/-- The bank's labels, [4000]: the reference's labels of the same arguments. -/
def bankLabelK (c : Dev nD) : S4000.Idx → BitVec 32 :=
  Cert.ReferenceIdeal.Read.val_main_v33 (F := Ideal) (m ((c : Thread nD τ).loc main_arg2)) (m ((c : Thread nD τ).loc main_arg3))
    (m ((c : Thread nD τ).loc main_arg8)) (m ((c : Thread nD τ).loc main_arg9))

set_option maxHeartbeats 8000000 in
/-- The first stretch leaves the bank. -/
theorem first_bank (c : Dev nD) :
    StableHlo.after (hostOps0 (F := Ideal)) (fun b => m (c, b)) (Proc.devRef .tc main_v18) = bankK m c := by
  unfold bankK
  simp only [hostOps0]
  after_results_simp <;> rfl

set_option maxHeartbeats 8000000 in
/-- The first stretch leaves the bank's labels. -/
theorem first_labels (c : Dev nD) :
    StableHlo.after (hostOps0 (F := Ideal)) (fun b => m (c, b)) (Proc.devRef .tc main_v33) = bankLabelK m c := by
  unfold bankLabelK
  simp only [hostOps0]
  after_results_simp <;> rfl

set_option maxHeartbeats 8000000 in
/-- The first stretch writes neither label argument. -/
theorem first_arg2 (c : Dev nD) :
    StableHlo.after (hostOps0 (F := Ideal)) (fun b => m (c, b)) (Proc.devRef .tc main_arg2) = m ((c : Thread nD τ).loc main_arg2) := by
  simp only [hostOps0]
  after_results_simp <;> rfl

set_option maxHeartbeats 8000000 in
theorem first_arg3 (c : Dev nD) :
    StableHlo.after (hostOps0 (F := Ideal)) (fun b => m (c, b)) (Proc.devRef .tc main_arg3) = m ((c : Thread nD τ).loc main_arg3) := by
  simp only [hostOps0]
  after_results_simp <;> rfl

set_option maxHeartbeats 8000000 in
/-- The first stretch ends by writing the integer zero the bank is widened with. -/
theorem first_zero (c : Dev nD) :
    StableHlo.after (hostOps0 (F := Ideal)) (fun b => m (c, b)) (Proc.devRef .tc main_c_7) = constantI S_ 32 0#32 := by
  simp only [hostOps0]
  after_results_simp <;> rfl

/-- The region finds the bank widened by 96 rows of zeros, cast and transposed. -/
theorem entry_bank (c : Dev nD) :
    V m c main_v37 = transpose S256x4096 [1, 0] (truncf (F := Ideal) .bf16
        (pad S4096x256 ![0, 0] ![96, 0] ![0, 0] (bankK m c) (sitofp (F := Ideal) .f32 (constantI S_ 32 0#32)) pads_S4000x256_S4096x256_0960_000 h_S_)
        bitsLt_bf16_f32) transposes_S4096x256_S256x4096_1_0 := by
  show V0 m c (Proc.devRef .tc main_v37) = _
  have h18 := first_bank m c
  have h7 := first_zero m c
  rw [entry_split]
  generalize StableHlo.after (hostOps0 (F := Ideal)) (fun b => m (c, b)) = W at h18 h7 ⊢
  simp only [hostOps0_4, hostOps0_3, hostOps0_2, hostOps0_1]
  after_results
  show transpose S256x4096 [1, 0] (truncf (F := Ideal) .bf16
        (pad S4096x256 ![0, 0] ![96, 0] ![0, 0] (W (Proc.devRef .tc main_v18)) (sitofp (F := Ideal) .f32 (W (Proc.devRef .tc main_c_7))) pads_S4000x256_S4096x256_0960_000 h_S_)
        bitsLt_bf16_f32) transposes_S4096x256_S256x4096_1_0 = _
  rw [h18, h7]

/-- The region finds the labels widened by 96 entries of -1, as one row. -/
theorem entry_labels (c : Dev nD) :
    V m c main_v38 = shapeCast S1x4096 (pad S4096 ![0] ![96] ![0] (bankLabelK m c) (id (constantI S_ 32 4294967295#32)) pads_S4000_S4096_0960 h_S_)
        shapeCasts_S4096_S1x4096 := by
  show V0 m c (Proc.devRef .tc main_v38) = _
  rw [entry_split, ← first_labels]
  generalize StableHlo.after (hostOps0 (F := Ideal)) (fun b => m (c, b)) = W
  simp only [hostOps0_4, hostOps0_3, hostOps0_2, hostOps0_1]
  after_results
  rfl

/-- The region finds the first label vector as a column. -/
theorem entry_colA (c : Dev nD) :
    V m c main_v39 = shapeCast S16384x1 (m ((c : Thread nD τ).loc main_arg2)) shapeCasts_S16384_S16384x1 := by
  show V0 m c (Proc.devRef .tc main_v39) = _
  have h2 := first_arg2 m c
  rw [entry_split]
  generalize StableHlo.after (hostOps0 (F := Ideal)) (fun b => m (c, b)) = W at h2 ⊢
  simp only [hostOps0_4, hostOps0_3, hostOps0_2, hostOps0_1]
  after_results
  show shapeCast S16384x1 (W (Proc.devRef .tc main_arg2)) shapeCasts_S16384_S16384x1 = _
  rw [h2]

/-- The region finds the second label vector as a column. -/
theorem entry_colB (c : Dev nD) :
    V m c main_v40 = shapeCast S16384x1 (m ((c : Thread nD τ).loc main_arg3)) shapeCasts_S16384_S16384x1 := by
  show V0 m c (Proc.devRef .tc main_v40) = _
  have h3 := first_arg3 m c
  rw [entry_split]
  generalize StableHlo.after (hostOps0 (F := Ideal)) (fun b => m (c, b)) = W at h3 ⊢
  simp only [hostOps0_4, hostOps0_3, hostOps0_2, hostOps0_1]
  after_results
  show shapeCast S16384x1 (W (Proc.devRef .tc main_arg3)) shapeCasts_S16384_S16384x1 = _
  rw [h3]

end Cert.Contrast.K

end
-- ==== Proof.Layout.lean ====
/-
  Four layout operations of the kernel program's host side, read at an index given by coordinates.

  The bank is widened from 4000 to 4096 rows (96 rows of the padding value appended) and transposed: entry (k, j) of
  the result, for a column j below 4000, is entry (j, k) of the bank. The labels are widened the same way and given a
  leading unit axis: entry (0, j), for j below 4000, is label j. A vector of 16384 entries given a trailing unit axis
  reads at (r, 0) as entry r, and a one-column matrix cast back to a vector reads at r as its entry (r, 0).

  Widening by a high padding with no low padding and no interior padding leaves position j of the operand at position
  j: j = 0 + j * (0 + 1). The shape casts keep the row-major position: r * 1 + 0 = r.

  The lemmas hold for whatever proofs of the shape facts the operations carry, so those are implicit.
-/
import proofs.«168752_j88038239633768_1_alg».proof.KernelIdeal
import Idealize.ShloMosaic.Lib.Pipeline.Value
import Idealize.ShloMosaic.Lib.KernelVsHost
import Idealize.ShloMosaic.Lib.ValueIdx
import Idealize.ShloMosaic.Lib.ValueLayout

namespace Cert.Contrast.Layout

open Cert.KernelIdeal Idealize.ShloMosaic Idealize.ShloMosaic.ValueIdx

variable {α : Type}

/-- The bank widened by 96 rows, then transposed: entry (k, j) is the bank's entry (j, k) for j below 4000. -/
theorem bankT_apply {hp : S4000x256.Pads (![0, 0] : Fin 2 → Nat) ![96, 0] ![0, 0] S4096x256} {hu : 0 < S_.numel}
    {ht : S4096x256.Transposes [1, 0] S256x4096}
    (B : S4000x256.Idx → α) (z : S_.Idx → α) (k : Fin 256) (j : Fin 4096) (h : j.val < 4000) :
    transpose S256x4096 [1, 0] (pad S4096x256 ![0, 0] ![96, 0] ![0, 0] B z hp hu) ht (ix2 k j)
      = B (ix2 ⟨j.val, h⟩ k) :=
  (transpose_ix2_apply (pad S4096x256 ![0, 0] ![96, 0] ![0, 0] B z hp hu) ht k j).trans
    (pad_apply_of_inside ![0, 0] ![96, 0] ![0, 0] B z hp hu (ix2 j k) (ix2 ⟨j.val, h⟩ k) (fun a =>
      match a with
      | ⟨0, _⟩ => by show j.val = 0 + j.val * (0 + 1); omega
      | ⟨1, _⟩ => by show k.val = 0 + k.val * (0 + 1); omega))

/-- The labels widened by 96 entries, then given a leading unit axis: entry (0, j) is label j for j below 4000. -/
theorem labelsT_apply {hp : S4000.Pads (![0] : Fin 1 → Nat) ![96] ![0] S4096} {hu : 0 < S_.numel}
    {hc : S4096.ShapeCasts S1x4096}
    (L : S4000.Idx → α) (z : S_.Idx → α) (j : Fin 4096) (h : j.val < 4000) :
    shapeCast S1x4096 (pad S4096 ![0] ![96] ![0] L z hp hu) hc (ix2 (0 : Fin 1) j) = L (ix1 ⟨j.val, h⟩) :=
  (shapeCast_a_1a_apply (pad S4096 ![0] ![96] ![0] L z hp hu) hc 0 j).trans
    (pad_apply_of_inside ![0] ![96] ![0] L z hp hu (ix1 j) (ix1 ⟨j.val, h⟩) (fun a =>
      match a with
      | ⟨0, _⟩ => by show j.val = 0 + j.val * (0 + 1); omega))

/-- A vector given a trailing unit axis reads, at (r, 0), its entry r. -/
theorem column_apply {hc : S16384.ShapeCasts S16384x1} (x : S16384.Idx → α) (r : Fin 16384) :
    shapeCast S16384x1 x hc (ix2 r (0 : Fin 1)) = x (ix1 r) :=
  shapeCast_apply x hc _ _ (by
    rw [Shape.rowMajor_val_two, Shape.rowMajor_val_one]
    show r.val = r.val * 1 + 0
    omega)

/-- A one-column matrix cast to a vector reads, at r, its entry (r, 0). -/
theorem uncolumn_apply {hc : S16384x1.ShapeCasts S16384} (y : S16384x1.Idx → α) (r : Fin 16384) :
    shapeCast S16384 y hc (ix1 r) = y (ix2 r (0 : Fin 1)) :=
  shapeCast_apply y hc _ _ (by
    rw [Shape.rowMajor_val_two, Shape.rowMajor_val_one]
    show r.val * 1 + 0 = r.val
    omega)

end Cert.Contrast.Layout
-- ==== Proof.RowPad.lean ====
/-
  Padding a bank with columns whose score is -∞ changes neither a row's maximum nor its shifted exponential sum.

  The maximum: -∞ is the unit of max, so the extra columns do not raise it, and every true column is still present.
  The sum: at a padded column the shifted score is -∞ - m = -∞ whatever the maximum m is, and exp (-∞) = 0, so the
  column's term is 0 whether or not its label differs from the row's. Both sums are then the sum over the natural
  numbers below the larger width of one function that vanishes from the smaller width on.
-/
import proofs.«168752_j88038239633768_1_alg».proof.Proof.RowSpec

noncomputable section

namespace Cert.Contrast

open Idealize.ShloMosaic

/-- The maximum over a padded bank, taken from -∞, is the maximum over the bank. -/
theorem foldMax_pad {n N : ℕ} (hnN : n ≤ N) (q : Fin N → EReal) (q' : Fin n → EReal)
    (hin : ∀ (j : Fin N) (h : j.val < n), q j = q' ⟨j.val, h⟩) (hout : ∀ j : Fin N, n ≤ j.val → q j = ⊥) :
    Finset.univ.fold max ⊥ q = Finset.univ.fold max ⊥ q' := by
  apply le_antisymm
  · rw [Finset.fold_max_le]
    refine ⟨bot_le, fun j _ => ?_⟩
    by_cases h : j.val < n
    · rw [hin j h]
      exact (Finset.le_fold_max _).mpr (Or.inr ⟨_, Finset.mem_univ _, le_rfl⟩)
    · rw [hout j (not_lt.mp h)]
      exact bot_le
  · rw [Finset.fold_max_le]
    refine ⟨bot_le, fun j _ => ?_⟩
    have hj : q ⟨j.val, lt_of_lt_of_le j.isLt hnN⟩ = q' j := hin ⟨j.val, lt_of_lt_of_le j.isLt hnN⟩ j.isLt
    exact (Finset.le_fold_max _).mpr (Or.inr ⟨⟨j.val, lt_of_lt_of_le j.isLt hnN⟩, Finset.mem_univ _, hj.ge⟩)

theorem rowMax_pad {n N : ℕ} (hnN : n ≤ N) (p : EReal) (q : Fin N → EReal) (q' : Fin n → EReal)
    (hin : ∀ (j : Fin N) (h : j.val < n), q j = q' ⟨j.val, h⟩) (hout : ∀ j : Fin N, n ≤ j.val → q j = ⊥) :
    rowMax p q = rowMax p q' := by
  unfold rowMax
  rw [foldMax_pad hnN q q' hin hout]

theorem rowSum_pad {n N : ℕ} (hnN : n ≤ N) (p : EReal) (q : Fin N → EReal) (q' : Fin n → EReal)
    (hin : ∀ (j : Fin N) (h : j.val < n), q j = q' ⟨j.val, h⟩) (hout : ∀ j : Fin N, n ≤ j.val → q j = ⊥)
    (l : BitVec 32) (ml : Fin N → BitVec 32) (ml' : Fin n → BitVec 32)
    (hml : ∀ (j : Fin N) (h : j.val < n), ml j = ml' ⟨j.val, h⟩) :
    rowSum p q l ml = rowSum p q' l ml' := by
  unfold rowSum
  rw [rowMax_pad hnN p q q' hin hout]
  congr 1
  -- one function on the natural numbers carries both sums: the true column's term below `n`, zero from `n` on
  let g : ℕ → EReal := fun i =>
    if h : i < n then (if l ≠ ml' ⟨i, h⟩ then Ideal.exp (q' ⟨i, h⟩ - rowMax p q') else 0) else 0
  have hN : ∀ j : Fin N, (if l ≠ ml j then Ideal.exp (q j - rowMax p q') else 0) = g j.val := by
    intro j
    by_cases h : j.val < n
    · simp only [g, dif_pos h, hin j h, hml j h]
    · simp only [g, dif_neg h, hout j (not_lt.mp h), EReal.bot_sub, Ideal.exp_bot, ite_self]
  have hn : ∀ j : Fin n, (if l ≠ ml' j then Ideal.exp (q' j - rowMax p q') else 0) = g j.val := by
    intro j
    simp only [g, dif_pos j.isLt, Fin.eta]
  rw [Finset.sum_congr rfl (fun j _ => hN j), Finset.sum_congr rfl (fun j _ => hn j),
    Fin.sum_univ_eq_sum_range g N, Fin.sum_univ_eq_sum_range g n]
  symm
  apply Finset.sum_subset (Finset.range_mono hnN)
  intro i _ hi
  have h : ¬ i < n := fun h => hi (Finset.mem_range.mpr h)
  simp only [g, dif_neg h]

end Cert.Contrast

end
-- ==== Proof.RefRows.lean ====
/-
  The reference program's stages at a row are the specification's row quantities.

  The reference computes, for each of the 16384 rows r, the inner product of the row's two feature vectors divided
  by the temperature (the positive score), the matrix of inner products of the anchor with the 4000 rows of the bank
  divided by the temperature (the scores), the maximum of all of them, and the exponentials of the shifted scores,
  masked where the bank's label equals the row's and summed. Read at row r, each of these is the corresponding
  quantity of the row specification: division by the temperature is multiplication by its exact reciprocal, the
  maximum from -∞ over the second axis is the fold of max over the 4000 columns, and multiplying an exponential by
  the 0/1 mask "labels differ" is keeping it where they differ and replacing it by 0 where they do not.

  The bank (two gathers joined along the rows) and its labels are kept as they are: only their elements appear.
-/
import proofs.«168752_j88038239633768_1_alg».proof.Proof.Gen.ReferenceIdeal.Read
import proofs.«168752_j88038239633768_1_alg».proof.Proof.RowSpec
import Idealize.ShloMosaic.PureOps.Reduce
import Idealize.ShloMosaic.PureOps.Ideal.Laws
import Idealize.ShloMosaic.Lib.ValueIdx

noncomputable section

namespace Cert.Contrast.Ref

open Cert.ReferenceIdeal Cert.ReferenceIdeal.Gen Cert.ReferenceIdeal.Read Idealize.ShloMosaic Idealize.ShloMosaic.ValueIdx

/-! ## The three float words the reference spells -/

/-- The word of +0.0 denotes 0. -/
theorem ofBits_zero : Ideal.ofBits .f32 0x00000000#32 = 0 := by
  simp [Ideal.ofBits, Ideal.ieee]

/-- The word of -∞ denotes the bottom of the extended reals. -/
theorem ofBits_negInf : Ideal.ofBits .f32 0xFF800000#32 = ⊥ := by
  simp [Ideal.ofBits, Ideal.ieee]

/-- The single-precision word nearest 0.1 denotes the real 13421773 / 2^27. -/
theorem ofBits_tenth : Ideal.ofBits .f32 0x3DCCCCCD#32 = ((13421773 / 134217728 : ℝ) : EReal) := by
  simp [Ideal.ofBits, Ideal.ieee, -EReal.coe_mul]; norm_num

/-- Dividing by the temperature is multiplying by its reciprocal. -/
theorem div_tenth (x : EReal) : Ideal.div x (Ideal.ofBits .f32 0x3DCCCCCD#32) = x * invTemp := by
  rw [ofBits_tenth, Ideal.div_coe (by norm_num)]
  unfold invTemp
  congr 2
  norm_num

/-- An exponential times the 0/1 mask "the two labels differ" is the exponential where they differ and 0 where not. -/
theorem mul_mask (e : EReal) (a b : BitVec 32) :
    e * FloatOps.uitofp (F := Ideal) .f32 (IntOp.cmpi .ne a b) = if a ≠ b then e else 0 := by
  show e * (((IntOp.cmpi .ne a b).toNat : ℝ) : EReal) = _
  by_cases h : a = b
  · have hc : IntOp.cmpi .ne a b = 0#1 := by simp [IntOp.cmpi, h]
    rw [hc, if_neg (not_not.mpr h)]
    simp
  · have hc : IntOp.cmpi .ne a b = 1#1 := by
      show BitVec.ofBool (a != b) = 1#1
      rw [bne_iff_ne.mpr h]; rfl
    rw [hc, if_pos h]
    simp

variable (x0 x1 : (⟨S16384x256, .f32⟩ : BufTy).Contents (Elt Ideal)) (x2 x3 : (⟨S16384, .i32⟩ : BufTy).Contents (Elt Ideal))
         (x6 x7 : (⟨S4x256x64x64, .f32⟩ : BufTy).Contents (Elt Ideal)) (x8 x9 : (⟨S2000, .i32⟩ : BufTy).Contents (Elt Ideal))

/-- The memory bank: 4000 rows of 256 features (the reference's two gathers, joined). -/
def bank : Fin 4000 → Fin 256 → EReal := fun j k => val_main_v18 (F := Ideal) x6 x7 x8 x9 (ix2 j k)

/-- The bank's labels. -/
def bankLabel : Fin 4000 → BitVec 32 := fun j => val_main_v33 (F := Ideal) x2 x3 x8 x9 (ix1 j)

/-- Row `r` of a feature matrix. -/
def row (x : (⟨S16384x256, .f32⟩ : BufTy).Contents (Elt Ideal)) (r : Fin 16384) : Fin 256 → EReal := fun k => x (ix2 r k)

/-! ## The positive score -/

theorem ref_pos (r : Fin 16384) :
    val_main_v38 (F := Ideal) x0 x1 (ix2 r 0) = posRow (row x0 r) (row x1 r) := by
  rw [val_main_v38_apply, val_main_v36_apply, val_main_v35_apply, val_main_v37_apply, val_main_cst_7_apply,
    val_main_cst_apply, Ideal.hostDivf_def, Ideal.ofBits_def, Ideal.ofBits_def, ofBits_zero, zero_add, div_tenth]
  unfold posRow row
  congr 1
  refine Finset.sum_congr rfl fun k _ => ?_
  have e : idx_main_v35 (idx_main_v36 (ix2 r (0 : Fin 1))) k = ix2 r k :=
    funext fun a => match a with | ⟨0, _⟩ => rfl | ⟨1, _⟩ => rfl
  rw [e, val_main_v34_apply, Ideal.mulf_def]

/-! ## The scores against the bank, and their maximum -/

/-- The score matrix at (r, j), for an anchor `x`. -/
theorem ref_sim (x : (⟨S16384x256, .f32⟩ : BufTy).Contents (Elt Ideal)) (r : Fin 16384) (j : Fin 4000) :
    val_main_v41 (F := Ideal) x x6 x7 x8 x9 (ix2 r j) = simRow (row x r) (bank x6 x7 x8 x9) j := by
  rw [val_main_v41_apply, val_main_v39_apply, val_main_v40_apply, val_main_cst_8_apply, Ideal.hostDivf_def,
    Ideal.ofBits_def, div_tenth]
  unfold simRow row bank
  congr 1
  refine Finset.sum_congr rfl fun k _ => ?_
  have el : lidx_main_v39 (ix2 r j) k = ix2 r k := funext fun a => match a with | ⟨0, _⟩ => rfl | ⟨1, _⟩ => rfl
  have er : ridx_main_v39 (ix2 r j) k = ix2 j k := funext fun a => match a with | ⟨0, _⟩ => rfl | ⟨1, _⟩ => rfl
  rw [el, er]

/-- Row `r` with column `k` put back on the second axis is (r, k). -/
theorem lift_row (h : S16384x4000.Reduces [1] S16384) (r : Fin 16384) (k : Fin (S16384x4000.size 1)) :
    h.lift (ix1 r) k = ix2 r (⟨k.val, k.isLt⟩ : Fin 4000) := by
  funext c; apply Fin.ext
  fin_cases c <;> rfl

/-- The maximum of the scores of row `r` over the bank, from -∞. -/
theorem ref_bankMax (x : (⟨S16384x256, .f32⟩ : BufTy).Contents (Elt Ideal)) (r : Fin 16384) :
    val_main_v43 (F := Ideal) x x6 x7 x8 x9 (ix2 r 0)
      = Finset.univ.fold max ⊥ (simRow (row x r) (bank x6 x7 x8 x9)) := by
  have h : S16384x4000.Reduces [1] S16384 := by decide
  have e43 : idx_main_v43 (ix2 r (0 : Fin 1)) = ix1 r := funext fun a => match a with | ⟨0, _⟩ => rfl
  rw [val_main_v43_apply, e43]
  unfold val_main_v42
  rw [Host.reduce_eq_fold_single FloatOps.maximumf _ _ reducesTo_S16384x4000_S16384_d1 h h_S_]
  rw [val_main_cst_9_apply, Ideal.ofBits_def, ofBits_negInf]
  have hf : (val_main_v41 (F := Ideal) x x6 x7 x8 x9 ∘ h.lift (ix1 r)) = simRow (row x r) (bank x6 x7 x8 x9) :=
    funext fun k => by
      show val_main_v41 (F := Ideal) x x6 x7 x8 x9 (h.lift (ix1 r) k) = _
      rw [lift_row h r k, ref_sim]
      rfl
  rw [hf]
  rfl

theorem ref_max1 (r : Fin 16384) :
    val_main_v44 (F := Ideal) x0 x1 x6 x7 x8 x9 (ix2 r 0)
      = rowMax (posRow (row x0 r) (row x1 r)) (simRow (row x0 r) (bank x6 x7 x8 x9)) := by
  rw [val_main_v44_apply, Ideal.maximumf_def, ref_pos, ref_bankMax]
  rfl

/-! ## The shifted exponential sum -/

theorem ref_sum1 (r : Fin 16384) :
    val_main_v59 (F := Ideal) x0 x1 x2 x3 x6 x7 x8 x9 (ix1 r)
      = rowSum (posRow (row x0 r) (row x1 r)) (simRow (row x0 r) (bank x6 x7 x8 x9)) (x2 (ix1 r))
          (bankLabel x2 x3 x8 x9) := by
  have e53 : idx_main_v53 (ix1 r) = ix2 r (0 : Fin 1) :=
    funext fun a => match a with | ⟨0, _⟩ => Fin.ext (Nat.div_one _) | ⟨1, _⟩ => rfl
  rw [val_main_v59_apply, val_main_v53_apply, e53, val_main_v52_apply, val_main_v51_apply, val_main_v58_apply,
    val_main_cst_10_apply, Ideal.addf_def, Ideal.hostUnary_exp_def, Ideal.subf_def, Ideal.ofBits_def, ofBits_zero,
    zero_add, ref_pos, ref_max1]
  unfold rowSum
  congr 1
  refine Finset.sum_congr rfl fun j _ => ?_
  have e58 : idx_main_v58 (ix1 r) j = ix2 r j := funext fun a => match a with | ⟨0, _⟩ => rfl | ⟨1, _⟩ => rfl
  have e54 : idx_main_v54 (ix2 r j) = ix2 r (0 : Fin 1) :=
    funext fun a => match a with | ⟨0, _⟩ => rfl | ⟨1, _⟩ => rfl
  have e47 : idx_main_v45 (idx_main_v47 (ix2 r j)) = ix1 r := funext fun a => match a with | ⟨0, _⟩ => rfl
  have e48 : idx_main_v46 (idx_main_v48 (ix2 r j)) = ix1 j := funext fun a => match a with | ⟨0, _⟩ => rfl
  rw [e58, val_main_v57_apply, val_main_v56_apply, val_main_v55_apply, val_main_v54_apply, e54, val_main_v50_apply,
    val_main_v49_apply, val_main_v47_apply, val_main_v45_apply, e47, val_main_v48_apply, val_main_v46_apply, e48,
    Ideal.mulf_def, Ideal.hostUnary_exp_def, Ideal.subf_def, ref_sim, ref_max1, mul_mask]
  rfl

/-! ## The second direction: the other feature matrix is the anchor, its labels the row's labels

  The second direction's score matrix and its maximum over the bank are the first direction's operations applied to the
  other anchor: the two pairs of stages unfold to the same terms. -/

theorem v82_eq : val_main_v82 (F := Ideal) x1 x6 x7 x8 x9 = val_main_v41 (F := Ideal) x1 x6 x7 x8 x9 := rfl

theorem v84_eq : val_main_v84 (F := Ideal) x1 x6 x7 x8 x9 = val_main_v43 (F := Ideal) x1 x6 x7 x8 x9 := rfl

theorem ref_max2 (r : Fin 16384) :
    val_main_v85 (F := Ideal) x0 x1 x6 x7 x8 x9 (ix2 r 0)
      = rowMax (posRow (row x0 r) (row x1 r)) (simRow (row x1 r) (bank x6 x7 x8 x9)) := by
  rw [val_main_v85_apply, Ideal.maximumf_def, ref_pos, v84_eq, ref_bankMax]
  rfl

theorem ref_sum2 (r : Fin 16384) :
    val_main_v100 (F := Ideal) x0 x1 x2 x3 x6 x7 x8 x9 (ix1 r)
      = rowSum (posRow (row x0 r) (row x1 r)) (simRow (row x1 r) (bank x6 x7 x8 x9)) (x3 (ix1 r))
          (bankLabel x2 x3 x8 x9) := by
  have e94 : idx_main_v94 (ix1 r) = ix2 r (0 : Fin 1) :=
    funext fun a => match a with | ⟨0, _⟩ => Fin.ext (Nat.div_one _) | ⟨1, _⟩ => rfl
  rw [val_main_v100_apply, val_main_v94_apply, e94, val_main_v93_apply, val_main_v92_apply, val_main_v99_apply,
    val_main_cst_19_apply, Ideal.addf_def, Ideal.hostUnary_exp_def, Ideal.subf_def, Ideal.ofBits_def, ofBits_zero,
    zero_add, ref_pos, ref_max2]
  unfold rowSum
  congr 1
  refine Finset.sum_congr rfl fun j _ => ?_
  have e99 : idx_main_v99 (ix1 r) j = ix2 r j := funext fun a => match a with | ⟨0, _⟩ => rfl | ⟨1, _⟩ => rfl
  have e95 : idx_main_v95 (ix2 r j) = ix2 r (0 : Fin 1) :=
    funext fun a => match a with | ⟨0, _⟩ => rfl | ⟨1, _⟩ => rfl
  have e88 : idx_main_v86 (idx_main_v88 (ix2 r j)) = ix1 r := funext fun a => match a with | ⟨0, _⟩ => rfl
  have e89 : idx_main_v87 (idx_main_v89 (ix2 r j)) = ix1 j := funext fun a => match a with | ⟨0, _⟩ => rfl
  rw [e99, val_main_v98_apply, val_main_v97_apply, val_main_v96_apply, val_main_v95_apply, e95, val_main_v91_apply,
    val_main_v90_apply, val_main_v88_apply, val_main_v86_apply, e88, val_main_v89_apply, val_main_v87_apply, e89,
    Ideal.mulf_def, Ideal.hostUnary_exp_def, Ideal.subf_def, v82_eq, ref_sim, ref_max2, mul_mask]
  rfl

end Cert.Contrast.Ref

end
-- ==== Proof.KernelRows.lean ====
/-
  The five arrays the region leaves, row by row, in the reference's words.

  The region sees the bank transposed and widened from 4000 to 4096 columns; the scores against the 96 columns added are
  -∞ (their fill is the named -∞), so they change neither a row's maximum nor its sum: each array's row `r` is the
  specification's row quantity over the 4000-row bank the reference builds from the same arguments.
-/
import proofs.«168752_j88038239633768_1_alg».proof.Proof.OutArrays
import proofs.«168752_j88038239633768_1_alg».proof.Proof.Prelude
import proofs.«168752_j88038239633768_1_alg».proof.Proof.Layout
import proofs.«168752_j88038239633768_1_alg».proof.Proof.RowPad
import proofs.«168752_j88038239633768_1_alg».proof.Proof.RefRows

set_option maxRecDepth 16384

noncomputable section

namespace Cert.Contrast.K

open Idealize.ShloMosaic Idealize.ShloMosaic.TcCoe Idealize.SL.Sem Idealize.ShloMosaic.ValueIdx
open Cert.KernelIdeal Cert.KernelIdeal.Gen Cert.KernelIdeal.GenP Cert.Contrast

variable (m : (ℓ : Loc nD τ sig) → Buf (Elt Ideal) ℓ)

/-- The reference's bank of this memory's arguments. -/
abbrev refBank (c : Dev nD) : Fin 4000 → Fin 256 → EReal :=
  Ref.bank (m ((c : Thread nD τ).loc main_arg6)) (m ((c : Thread nD τ).loc main_arg7)) (m ((c : Thread nD τ).loc main_arg8)) (m ((c : Thread nD τ).loc main_arg9))

/-- The reference's bank labels of this memory's arguments. -/
abbrev refBankLabel (c : Dev nD) : Fin 4000 → BitVec 32 :=
  Ref.bankLabel (m ((c : Thread nD τ).loc main_arg2)) (m ((c : Thread nD τ).loc main_arg3)) (m ((c : Thread nD τ).loc main_arg8)) (m ((c : Thread nD τ).loc main_arg9))

theorem featA_eq (c : Dev nD) (r : Fin 16384) : featA m c r = Ref.row (m ((c : Thread nD τ).loc main_arg0)) r := by
  funext k; unfold featA Ref.row; rw [V_main_arg0]

theorem featB_eq (c : Dev nD) (r : Fin 16384) : featB m c r = Ref.row (m ((c : Thread nD τ).loc main_arg1)) r := by
  funext k; unfold featB Ref.row; rw [V_main_arg1]

theorem labelA_eq (c : Dev nD) (r : Fin 16384) : labelA m c r = m ((c : Thread nD τ).loc main_arg2) (ix1 r) := by
  unfold labelA; rw [entry_colA]; exact Layout.column_apply _ r

theorem labelB_eq (c : Dev nD) (r : Fin 16384) : labelB m c r = m ((c : Thread nD τ).loc main_arg3) (ix1 r) := by
  unfold labelB; rw [entry_colB]; exact Layout.column_apply _ r

/-- Below column 4000 the transposed, widened bank is the bank. -/
theorem bankT_eq (c : Dev nD) (j : Fin 4096) (h : j.val < 4000) (k : Fin 256) : bankT m c j k = refBank m c ⟨j.val, h⟩ k := by
  unfold bankT; rw [entry_bank]
  -- the change of format between the widening and the transposition is the identity on extended reals
  show transpose S256x4096 [1, 0] (pad S4096x256 ![0, 0] ![96, 0] ![0, 0] (bankK m c) (sitofp (F := Ideal) .f32 (constantI S_ 32 0#32))
      pads_S4000x256_S4096x256_0960_000 h_S_) transposes_S4096x256_S256x4096_1_0 (ix2 k j) = _
  exact Layout.bankT_apply (bankK m c) _ k j h

/-- Below column 4000 the widened labels are the labels. -/
theorem bankLabelT_eq (c : Dev nD) (j : Fin 4096) (h : j.val < 4000) : bankLabelT m c j = refBankLabel m c ⟨j.val, h⟩ := by
  unfold bankLabelT; rw [entry_labels]
  exact Layout.labelsT_apply (bankLabelK m c) _ j h

/-- A row's scores against the widened bank: the reference's below column 4000. -/
theorem padded_in (c : Dev nD) (u : Fin 256 → EReal) (j : Fin 4096) (h : j.val < 4000) :
    paddedScores u (bankT m c) j = simRow u (refBank m c) ⟨j.val, h⟩ := by
  unfold paddedScores; rw [if_pos h]; unfold simRow
  exact congrArg (· * invTemp) (Finset.sum_congr rfl fun k _ => congrArg (u k * ·) (bankT_eq m c j h k))

/-- … and -∞ from column 4000 on. -/
theorem padded_out (c : Dev nD) (u : Fin 256 → EReal) (j : Fin 4096) (h : 4000 ≤ j.val) : paddedScores u (bankT m c) j = ⊥ := by
  unfold paddedScores; rw [if_neg (by omega)]

/-! ## The arrays at a row -/

theorem row_pos (c : Dev nD) (r : Fin 16384) :
    (dats m 0 c).arrAt 6 cfg0.N (ix2 r 0) = posRow (Ref.row (m ((c : Thread nD τ).loc main_arg0)) r) (Ref.row (m ((c : Thread nD τ).loc main_arg1)) r) := by
  rw [final_pos]
  show posRow (featA m c r) (featB m c r) = _
  rw [featA_eq, featB_eq]

theorem row_max1 (c : Dev nD) (r : Fin 16384) :
    (dats m 0 c).arrAt 7 cfg0.N (ix2 r 0) = rowMax (posRow (Ref.row (m ((c : Thread nD τ).loc main_arg0)) r) (Ref.row (m ((c : Thread nD τ).loc main_arg1)) r))
      (simRow (Ref.row (m ((c : Thread nD τ).loc main_arg0)) r) (refBank m c)) := by
  rw [final_max1]
  show rowMax (posRow (featA m c r) (featB m c r)) (paddedScores (featA m c r) (bankT m c)) = _
  rw [rowMax_pad (by decide : 4000 ≤ 4096) _ _ (simRow (featA m c r) (refBank m c)) (fun j h => padded_in m c _ j h) (fun j h => padded_out m c _ j h),
    featA_eq, featB_eq]

theorem row_max2 (c : Dev nD) (r : Fin 16384) :
    (dats m 0 c).arrAt 9 cfg0.N (ix2 r 0) = rowMax (posRow (Ref.row (m ((c : Thread nD τ).loc main_arg0)) r) (Ref.row (m ((c : Thread nD τ).loc main_arg1)) r))
      (simRow (Ref.row (m ((c : Thread nD τ).loc main_arg1)) r) (refBank m c)) := by
  rw [final_max2]
  show rowMax (posRow (featA m c r) (featB m c r)) (paddedScores (featB m c r) (bankT m c)) = _
  rw [rowMax_pad (by decide : 4000 ≤ 4096) _ _ (simRow (featB m c r) (refBank m c)) (fun j h => padded_in m c _ j h) (fun j h => padded_out m c _ j h),
    featA_eq, featB_eq]

theorem row_sum1 (c : Dev nD) (r : Fin 16384) :
    (dats m 0 c).arrAt 8 cfg0.N (ix2 r 0) = rowSum (posRow (Ref.row (m ((c : Thread nD τ).loc main_arg0)) r) (Ref.row (m ((c : Thread nD τ).loc main_arg1)) r))
      (simRow (Ref.row (m ((c : Thread nD τ).loc main_arg0)) r) (refBank m c)) (m ((c : Thread nD τ).loc main_arg2) (ix1 r)) (refBankLabel m c) := by
  rw [final_sum1]
  show rowSum (posRow (featA m c r) (featB m c r)) (paddedScores (featA m c r) (bankT m c)) (labelA m c r) (bankLabelT m c) = _
  rw [rowSum_pad (by decide : 4000 ≤ 4096) _ _ (simRow (featA m c r) (refBank m c)) (fun j h => padded_in m c _ j h) (fun j h => padded_out m c _ j h)
      _ _ (refBankLabel m c) (fun j h => bankLabelT_eq m c j h),
    featA_eq, featB_eq, labelA_eq]

theorem row_sum2 (c : Dev nD) (r : Fin 16384) :
    (dats m 0 c).arrAt 10 cfg0.N (ix2 r 0) = rowSum (posRow (Ref.row (m ((c : Thread nD τ).loc main_arg0)) r) (Ref.row (m ((c : Thread nD τ).loc main_arg1)) r))
      (simRow (Ref.row (m ((c : Thread nD τ).loc main_arg1)) r) (refBank m c)) (m ((c : Thread nD τ).loc main_arg3) (ix1 r)) (refBankLabel m c) := by
  rw [final_sum2]
  show rowSum (posRow (featA m c r) (featB m c r)) (paddedScores (featB m c r) (bankT m c)) (labelB m c r) (bankLabelT m c) = _
  rw [rowSum_pad (by decide : 4000 ≤ 4096) _ _ (simRow (featB m c r) (refBank m c)) (fun j h => padded_in m c _ j h) (fun j h => padded_out m c _ j h)
      _ _ (refBankLabel m c) (fun j h => bankLabelT_eq m c j h),
    featA_eq, featB_eq, labelB_eq]

end Cert.Contrast.K

end
-- ==== Proof.RefTail.lean ====
/-
  The reference's result is one "tail" of four per-row vectors and the two logit inputs.

  For each direction the reference has, per row, the shifted exponential of the positive score `e` and the shifted
  exponential sum `s`. From these the direction's loss is: the per-row value -log (e / (s + ε) + ε), kept on the rows
  the direction's mask selects (the other view's logit above the threshold 0.7 and above this view's logit), summed
  over the rows and divided by the number of selected rows plus a small constant. The result is the sum of the two
  directions' losses; the second direction's mask is the first's with the two logit inputs exchanged.

  The tail is spelled here with the reference's own operations, so that the reference's result IS the tail of its four
  vectors by unfolding; the sums over the rows are not opened. The two exponential vectors are then read at a row in
  the row specification's words.
-/
import proofs.«168752_j88038239633768_1_alg».proof.Proof.Gen.ReferenceIdeal.Read
import proofs.«168752_j88038239633768_1_alg».proof.Proof.RefRows

noncomputable section

namespace Cert.Contrast.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A direction's row mask, as 0/1 floats: the logit `b` is above 0.7 and the logit `a` is below `b`. -/
def mask (a b : (⟨S16384, .f32⟩ : BufTy).Contents (Elt Ideal)) : (⟨S16384, .f32⟩ : BufTy).Contents (Elt Ideal) :=
  uitofp (F := Ideal) .f32
    (andi (cmpf (F := Ideal) (φ := .f32) .ogt (b) (broadcastInDim S16384 ![] bcast_S_S16384 (constant (F := Ideal) S_ .f32 0x3F333333#32)))
      (cmpf (F := Ideal) (φ := .f32) .olt (a) (b)))

/-- A direction's loss from its exponential vector `e`, its sum vector `s` and its mask `m`:
    the masked sum over the rows of -log (e / (s + ε) + ε), over the mask's sum plus a small constant. -/
def branchLoss (e s m : (⟨S16384, .f32⟩ : BufTy).Contents (Elt Ideal)) : (⟨S_, .f32⟩ : BufTy).Contents (Elt Ideal) :=
  Host.divf (F := Ideal)
    (Host.reduceAdd (F := Ideal)
      (mulf (F := Ideal)
        (Host.negf (F := Ideal) (Host.log (F := Ideal)
          (addf (F := Ideal)
            (Host.divf (F := Ideal) e
              (addf (F := Ideal) s (broadcastInDim S16384 ![] bcast_S_S16384 (constant (F := Ideal) S_ .f32 0x322BCC77#32))))
            (broadcastInDim S16384 ![] bcast_S_S16384 (constant (F := Ideal) S_ .f32 0x322BCC77#32)))))
        m)
      (constant (F := Ideal) S_ .f32 0x00000000#32) reducesTo_S16384_S_d0 h_S_)
    (addf (F := Ideal)
      (Host.reduceAdd (F := Ideal) m (constant (F := Ideal) S_ .f32 0x00000000#32) reducesTo_S16384_S_d0 h_S_)
      (constant (F := Ideal) S_ .f32 0x2B8CBCCC#32))

/-- The reference's result from the four per-row vectors and the two logit inputs. -/
def tail (e1 s1 e2 s2 x4 x5 : (⟨S16384, .f32⟩ : BufTy).Contents (Elt Ideal)) : (⟨S_, .f32⟩ : BufTy).Contents (Elt Ideal) :=
  addf (F := Ideal) (φ := .f32) (branchLoss e1 s1 (mask x4 x5)) (branchLoss e2 s2 (mask x5 x4))

variable (x0 x1 : (⟨S16384x256, .f32⟩ : BufTy).Contents (Elt Ideal)) (x2 x3 : (⟨S16384, .i32⟩ : BufTy).Contents (Elt Ideal))
         (x4 x5 : (⟨S16384, .f32⟩ : BufTy).Contents (Elt Ideal))
         (x6 x7 : (⟨S4x256x64x64, .f32⟩ : BufTy).Contents (Elt Ideal)) (x8 x9 : (⟨S2000, .i32⟩ : BufTy).Contents (Elt Ideal))

/-- The reference's result is the tail of its own four vectors: both sides unfold to the same term. -/
theorem result_eq_tail :
    val_main_v121 (F := Ideal) x0 x1 x2 x3 x4 x5 x6 x7 x8 x9
      = tail (val_main_v62 (F := Ideal) x0 x1 x6 x7 x8 x9) (val_main_v59 (F := Ideal) x0 x1 x2 x3 x6 x7 x8 x9)
          (val_main_v103 (F := Ideal) x0 x1 x6 x7 x8 x9) (val_main_v100 (F := Ideal) x0 x1 x2 x3 x6 x7 x8 x9) x4 x5 := rfl

/-- The first direction's exponential vector at row `r`. -/
theorem ref_e1 (r : Fin 16384) :
    val_main_v62 (F := Ideal) x0 x1 x6 x7 x8 x9 (ix1 r)
      = Ideal.exp (posRow (row x0 r) (row x1 r)
          - rowMax (posRow (row x0 r) (row x1 r)) (simRow (row x0 r) (bank x6 x7 x8 x9))) := by
  have e62 : idx_main_v62 (ix1 r) = ix2 r (0 : Fin 1) :=
    funext fun a => match a with | ⟨0, _⟩ => Fin.ext (Nat.div_one _) | ⟨1, _⟩ => rfl
  rw [val_main_v62_apply, e62, val_main_v61_apply, val_main_v60_apply, Ideal.hostUnary_exp_def, Ideal.subf_def,
    ref_pos, ref_max1]

/-- The second direction's exponential vector at row `r`. -/
theorem ref_e2 (r : Fin 16384) :
    val_main_v103 (F := Ideal) x0 x1 x6 x7 x8 x9 (ix1 r)
      = Ideal.exp (posRow (row x0 r) (row x1 r)
          - rowMax (posRow (row x0 r) (row x1 r)) (simRow (row x1 r) (bank x6 x7 x8 x9))) := by
  have e103 : idx_main_v103 (ix1 r) = ix2 r (0 : Fin 1) :=
    funext fun a => match a with | ⟨0, _⟩ => Fin.ext (Nat.div_one _) | ⟨1, _⟩ => rfl
  rw [val_main_v103_apply, e103, val_main_v102_apply, val_main_v101_apply, Ideal.hostUnary_exp_def, Ideal.subf_def,
    ref_pos, ref_max2]

end Cert.Contrast.Ref

end
-- ==== Proof.KTail.lean ====
/-
  The kernel program's host operations after its one region, read as the reference's tail.

  After the region the program has five per-row output arrays, each a column `[16384, 1]`: the positive score, the two
  anchors' row maxima and the two anchors' shifted exponential sums. The operations that follow turn each column into
  the vector of its entries, form exp (positive - maximum) for each anchor, and from these, the two sums and the two
  logit inputs compute the scalar loss by the same operations, in the same order, as the reference does from its own
  four vectors. So the scalar they leave is the reference's `tail` of those vectors, by unfolding both sides.
-/
import proofs.«168752_j88038239633768_1_alg».proof.Proof.KernelIdealFrameP
import proofs.«168752_j88038239633768_1_alg».proof.Proof.RefTail
import Idealize.ShloMosaic.Lib.StableHlo.Run

noncomputable section

namespace Cert.Contrast.K

open Cert.KernelIdeal Cert.KernelIdeal.Gen Cert.KernelIdeal.GenP Idealize.ShloMosaic Idealize.ShloMosaic.StableHlo
  Idealize.ShloMosaic.TcCoe Idealize.SL.Sem

variable (m : (ℓ : Loc nD τ sig) → Buf (Elt Ideal) ℓ)

/-- A per-row column `[16384, 1]` read as the vector `[16384]` of its entries. -/
def uncol (y : (⟨S16384x1, .f32⟩ : BufTy).Contents (Elt Ideal)) : (⟨S16384, .f32⟩ : BufTy).Contents (Elt Ideal) :=
  shapeCast S16384 y shapeCasts_S16384x1_S16384

set_option maxHeartbeats 60000000 in
set_option maxRecDepth 8192 in
/-- The scalar the host operations after the region leave is the reference's tail of the five per-row output arrays
    (the positive score, the two row maxima and the two shifted exponential sums) and the two logit inputs. -/
theorem tail_read (c : Dev nD) :
    Pipeline.afterTail₀ cfgs (dats m) 0 (V0 m) [hostOps1] c main_v85
      = Cert.Contrast.Ref.tail
          (Host.exp (F := Ideal) (φ := .f32) (subf (F := Ideal) (φ := .f32) (uncol ((dats m 0 c).arrAt 6 cfg0.N)) (uncol ((dats m 0 c).arrAt 7 cfg0.N))))
          (uncol ((dats m 0 c).arrAt 8 cfg0.N))
          (Host.exp (F := Ideal) (φ := .f32) (subf (F := Ideal) (φ := .f32) (uncol ((dats m 0 c).arrAt 6 cfg0.N)) (uncol ((dats m 0 c).arrAt 9 cfg0.N))))
          (uncol ((dats m 0 c).arrAt 10 cfg0.N))
          (m ((c : Thread nD τ).loc main_arg4)) (m ((c : Thread nD τ).loc main_arg5)) := by
  have h6 : Pipeline.withArrays (cfgs 0).spec c (V0 m c) (fun w => (dats m 0 c).arrAt w (cfgs 0).N) (Proc.devRef .tc main_v41_0)
      = (dats m 0 c).arrAt 6 cfg0.N := Pipeline.withArrays_arr spec0 launch0.win.arr_inj c _ _ 6
  have h7 : Pipeline.withArrays (cfgs 0).spec c (V0 m c) (fun w => (dats m 0 c).arrAt w (cfgs 0).N) (Proc.devRef .tc main_v41_1)
      = (dats m 0 c).arrAt 7 cfg0.N := Pipeline.withArrays_arr spec0 launch0.win.arr_inj c _ _ 7
  have h8 : Pipeline.withArrays (cfgs 0).spec c (V0 m c) (fun w => (dats m 0 c).arrAt w (cfgs 0).N) (Proc.devRef .tc main_v41_2)
      = (dats m 0 c).arrAt 8 cfg0.N := Pipeline.withArrays_arr spec0 launch0.win.arr_inj c _ _ 8
  have h9 : Pipeline.withArrays (cfgs 0).spec c (V0 m c) (fun w => (dats m 0 c).arrAt w (cfgs 0).N) (Proc.devRef .tc main_v41_3)
      = (dats m 0 c).arrAt 9 cfg0.N := Pipeline.withArrays_arr spec0 launch0.win.arr_inj c _ _ 9
  have h10 : Pipeline.withArrays (cfgs 0).spec c (V0 m c) (fun w => (dats m 0 c).arrAt w (cfgs 0).N) (Proc.devRef .tc main_v41_4)
      = (dats m 0 c).arrAt 10 cfg0.N := Pipeline.withArrays_arr spec0 launch0.win.arr_inj c _ _ 10
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  unfold Pipeline.afterTail₀
  show StableHlo.after hostOps1 _ (Proc.devRef .tc main_v85) = _
  simp only [hostOps1]
  after_results_simp
  rw [h6, h7, h8, h9, h10, h4, h5]
  rfl

/-- The result buffer is none of the pipeline's arrays. -/
theorem result_mem : main_v85 ∈ Pipeline.restRefs sig (cfgs 0).spec :=
  Pipeline.mem_restRefs_of main_v85 (by decide) (by decide)

end Cert.Contrast.K

end
-- ==== Proof.Bridge.lean ====
/-
  The kernel's result is the reference's.

  After the region the host reshapes the five columns to vectors and computes the loss from exp (pos - max) and the sum,
  branch by branch: the same closed term as the reference's, of four vectors that agree with the reference's row by row.
-/
import proofs.«168752_j88038239633768_1_alg».proof.Proof.KernelRows
import proofs.«168752_j88038239633768_1_alg».proof.Proof.KTail
import proofs.«168752_j88038239633768_1_alg».proof.Proof.RefTail

set_option maxRecDepth 16384

noncomputable section

namespace Cert.Contrast.K

open Idealize.ShloMosaic Idealize.ShloMosaic.TcCoe Idealize.SL.Sem Idealize.ShloMosaic.ValueIdx
open Cert.KernelIdeal Cert.KernelIdeal.Gen Cert.KernelIdeal.GenP Cert.Contrast

variable (m : (ℓ : Loc nD τ sig) → Buf (Elt Ideal) ℓ)

/-- The first branch's exponential vector. -/
theorem e1_eq (c : Dev nD) :
    Host.exp (F := Ideal) (φ := .f32) (subf (F := Ideal) (φ := .f32) (uncol ((dats m 0 c).arrAt 6 cfg0.N)) (uncol ((dats m 0 c).arrAt 7 cfg0.N)))
      = Cert.ReferenceIdeal.Read.val_main_v62 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) := by
  funext i
  obtain ⟨r, rfl⟩ : ∃ r : Fin 16384, i = ix1 r := ⟨i 0, eq_ix1 i⟩
  rw [Ref.ref_e1]
  show Ideal.exp (uncol ((dats m 0 c).arrAt 6 cfg0.N) (ix1 r) - uncol ((dats m 0 c).arrAt 7 cfg0.N) (ix1 r)) = _
  unfold uncol
  rw [Layout.uncolumn_apply, Layout.uncolumn_apply, row_pos, row_max1]

/-- The second branch's exponential vector. -/
theorem e2_eq (c : Dev nD) :
    Host.exp (F := Ideal) (φ := .f32) (subf (F := Ideal) (φ := .f32) (uncol ((dats m 0 c).arrAt 6 cfg0.N)) (uncol ((dats m 0 c).arrAt 9 cfg0.N)))
      = Cert.ReferenceIdeal.Read.val_main_v103 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) := by
  funext i
  obtain ⟨r, rfl⟩ : ∃ r : Fin 16384, i = ix1 r := ⟨i 0, eq_ix1 i⟩
  rw [Ref.ref_e2]
  show Ideal.exp (uncol ((dats m 0 c).arrAt 6 cfg0.N) (ix1 r) - uncol ((dats m 0 c).arrAt 9 cfg0.N) (ix1 r)) = _
  unfold uncol
  rw [Layout.uncolumn_apply, Layout.uncolumn_apply, row_pos, row_max2]

/-- The first branch's sums. -/
theorem s1_eq (c : Dev nD) :
    uncol ((dats m 0 c).arrAt 8 cfg0.N)
      = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) := by
  funext i
  obtain ⟨r, rfl⟩ : ∃ r : Fin 16384, i = ix1 r := ⟨i 0, eq_ix1 i⟩
  rw [Ref.ref_sum1]
  unfold uncol
  rw [Layout.uncolumn_apply, row_sum1]

/-- The second branch's sums. -/
theorem s2_eq (c : Dev nD) :
    uncol ((dats m 0 c).arrAt 10 cfg0.N)
      = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) := by
  funext i
  obtain ⟨r, rfl⟩ : ∃ r : Fin 16384, i = ix1 r := ⟨i 0, eq_ix1 i⟩
  rw [Ref.ref_sum2]
  unfold uncol
  rw [Layout.uncolumn_apply, row_sum2]

/-- What the kernel program's result buffer ends holding: the reference's last stage of the same arguments. -/
theorem kernel_result (c : Dev nD) :
    Pipeline.afterTail₀ cfgs (dats m) 0 (V0 m) [hostOps1] c main_v85
      = Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [tail_read, e1_eq, s1_eq, e2_eq, s2_eq, ← Ref.result_eq_tail]

end Cert.Contrast.K

end
-- ==== Proof.KernelRun.lean ====
/-
  The idealized kernel program's run, read: every weakly fair execution terminates with the result buffer at the
  reference's last stage of the argument arrays, and the argument arrays unchanged.
-/
import proofs.«168752_j88038239633768_1_alg».proof.Proof.Bridge

set_option maxRecDepth 16384

noncomputable section

namespace Cert.Contrast.K

open Idealize.ShloMosaic Idealize.ShloMosaic.TcCoe Idealize.SL.Sem Idealize.ShloMosaic.ValueIdx
open Cert.KernelIdeal Cert.KernelIdeal.Gen Cert.KernelIdeal.GenP Cert.Contrast

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v85)
        = Cert.ReferenceIdeal.Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).2 main_v85 result_mem).trans (kernel_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.Contrast.K

end
-- ==== Proof.lean ====
/-
  The certificate of the directional contrastive loss kernel against its reference.

  Both programs compute, for each of 16384 rows, the positive score p = ⟨f₁, f₂⟩ / T and, for each of the two anchors,
  the scores q_j = ⟨anchor, bank_j⟩ / T against a bank of 4000 rows, the largest score M = max (p, max_j q_j) and the
  sum S = exp (p - M) + Σ_{label_j ≠ label} exp (q_j - M); the loss is then the same closed expression of exp (p - M)
  and S, branch by branch. The kernel differs in three ways that vanish on the extended reals: it multiplies by the
  reciprocal of the temperature where the reference divides (the reciprocal is named its exact value, so x · (1/T) =
  x / T for every extended real x); it computes the products in a narrower format (a change of format is the identity);
  and it widens the bank to 4096 columns whose scores it replaces by a stand-in for -∞ (named -∞: the maximum ignores
  -∞, and exp (-∞ - M) = 0 whatever the labels say). No law used needs the inputs finite.
-/
import proofs.«168752_j88038239633768_1_alg».proof.Defs
import proofs.«168752_j88038239633768_1_alg».proof.Proof.Gen.Kernel
import proofs.«168752_j88038239633768_1_alg».proof.Proof.Gen.KernelIdeal
import proofs.«168752_j88038239633768_1_alg».proof.Proof.Gen.ReferenceIdeal
import proofs.«168752_j88038239633768_1_alg».proof.Proof.Gen.ReferenceIdeal.Run
import proofs.«168752_j88038239633768_1_alg».proof.Proof.Gen.ReferenceIdeal.Read
import proofs.«168752_j88038239633768_1_alg».proof.Proof.Gen.Pre_finite_inputs
import proofs.«168752_j88038239633768_1_alg».proof.Proof.KernelFrameP
import proofs.«168752_j88038239633768_1_alg».proof.Proof.KernelIdealFrameP
import proofs.«168752_j88038239633768_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.GenP.frame m ρ

/-- The idealized kernel program runs and keeps its arguments. -/
theorem frame_ki : Cert.frame_KernelIdeal := fun m ρ _ => Cert.KernelIdeal.GenP.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The five named constants: three times the reciprocal of the temperature, twice the stand-in for -∞. -/
theorem preserves : Cert.preserves_Kernel_KernelIdeal :=
  ⟨IdealRules.named_const.statement Cert.KernelIdeal.κ "inv_temp" .f32 0x41200000#32 ((134217728 / 13421773 : ℝ) : EReal) rfl,
   IdealRules.named_const.statement Cert.KernelIdeal.κ "inv_temp" .f32 0x41200000#32 ((134217728 / 13421773 : ℝ) : EReal) rfl,
   IdealRules.named_const.statement Cert.KernelIdeal.κ "inv_temp" .f32 0x41200000#32 ((134217728 / 13421773 : ℝ) : EReal) rfl,
   IdealRules.named_const.statement Cert.KernelIdeal.κ "neg_big" .f32 0xF149F2CA#32 ⊥ rfl,
   IdealRules.named_const.statement Cert.KernelIdeal.κ "neg_big" .f32 0xF149F2CA#32 ⊥ rfl⟩

/-- From memories that agree on the arguments both idealized programs end with the same loss: the reference's last
    stage of the arguments. -/
theorem algebraic : Cert.algebraic_KernelIdeal_ReferenceIdeal := by
  intro m ρ m' ρ' _ hagree
  refine ⟨fun c => Cert.ReferenceIdeal.Read.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.Contrast.K.run m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6, h7, h8, h9⟩ := hagree c
  rw [(h c).1, Cert.ReferenceIdeal.Read.val_main_v121_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
